-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x8 : Shape := ⟨2, ![100000, 8]⟩
abbrev S1000000 : Shape := ⟨1, ![1000000]⟩
abbrev S2x1000000 : Shape := ⟨2, ![2, 1000000]⟩
abbrev S16x128 : Shape := ⟨2, ![16, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x4 : Shape := ⟨2, ![8, 4]⟩
abbrev S4 : Shape := ⟨1, ![4]⟩
abbrev S4x50 : Shape := ⟨2, ![4, 50]⟩
abbrev S50 : Shape := ⟨1, ![50]⟩
abbrev S_ : Shape := ⟨0, ![]⟩

class Facts : Prop where
  bcast_S_S100000x8 : S_.BroadcastsInDim S100000x8 (![] : Fin 0 → Fin S100000x8.rank)
  reducesTo_S100000x8_S_d0_1 : S100000x8.ReducesTo [0, 1] S_
  h_S_ : 0 < S_.numel
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S8x4 : S_.BroadcastsInDim S8x4 (![] : Fin 0 → Fin S8x4.rank)
  reducesTo_S8x4_S_d0_1 : S8x4.ReducesTo [0, 1] S_
  bcast_S_S4 : S_.BroadcastsInDim S4 (![] : Fin 0 → Fin S4.rank)
  reducesTo_S4_S_d0 : S4.ReducesTo [0] S_
  bcast_S_S4x50 : S_.BroadcastsInDim S4x50 (![] : Fin 0 → Fin S4x50.rank)
  reducesTo_S4x50_S_d0_1 : S4x50.ReducesTo [0, 1] S_
  bcast_S_S50 : S_.BroadcastsInDim S50 (![] : Fin 0 → Fin S50.rank)
  reducesTo_S50_S_d0 : S50.ReducesTo [0] S_

variable [Facts]

def fn_part4 {F : FTy → Type} [FloatOps F] (main_arg16 : FVec F S50 .f32) (main_v63 : IVec S_ 1) (main_v67 : IVec S_ 1) : IVec S_ 1 :=
  let main_v68 : IVec S_ 1 := andi main_v63 main_v67
  let main_v69 : FVec F S50 .f32 := Host.absf main_arg16
  let main_cst_26 : FVec F S_ .f32 := constant S_ .f32 0x7F800000#32
  let main_v70 : FVec F S50 .f32 := broadcastInDim S50 ![] bcast_S_S50 main_cst_26
  let main_v71 : IVec S50 1 := cmpf .olt main_v69 main_v70
  let main_c_27 : IVec S_ 1 := constantI S_ 1 1#1
  let main_v72 : IVec S_ 1 := (fun x v => Host.reduce IntOp.andi x v reducesTo_S50_S_d0 h_S_) main_v71 main_c_27
  let main_v73 : IVec S_ 1 := andi main_v68 main_v72
  main_v73

def fn_part3 {F : FTy → Type} [FloatOps F] (main_arg13 : FVec F S8x4 .f32) (main_arg14 : FVec F S4 .f32) (main_arg15 : FVec F S4x50 .f32) (main_arg16 : FVec F S50 .f32) (main_v48 : IVec S_ 1) (main_v49 : FVec F S8 .f32) (main_v50 : FVec F S8 .f32) : IVec S_ 1 :=
  let main_v51 : IVec S8 1 := cmpf .olt main_v49 main_v50
  let main_c_19 : IVec S_ 1 := constantI S_ 1 1#1
  let main_v52 : IVec S_ 1 := (fun x v => Host.reduce IntOp.andi x v reducesTo_S8_S_d0 h_S_) main_v51 main_c_19
  let main_v53 : IVec S_ 1 := andi main_v48 main_v52
  let main_v54 : FVec F S8x4 .f32 := Host.absf main_arg13
  let main_cst_20 : FVec F S_ .f32 := constant S_ .f32 0x7F800000#32
  let main_v55 : FVec F S8x4 .f32 := broadcastInDim S8x4 ![] bcast_S_S8x4 main_cst_20
  let main_v56 : IVec S8x4 1 := cmpf .olt main_v54 main_v55
  let main_c_21 : IVec S_ 1 := constantI S_ 1 1#1
  let main_v57 : IVec S_ 1 := (fun x v => Host.reduce IntOp.andi x v reducesTo_S8x4_S_d0_1 h_S_) main_v56 main_c_21
  let main_v58 : IVec S_ 1 := andi main_v53 main_v57
  let main_v59 : FVec F S4 .f32 := Host.absf main_arg14
  let main_cst_22 : FVec F S_ .f32 := constant S_ .f32 0x7F800000#32
  let main_v60 : FVec F S4 .f32 := broadcastInDim S4 ![] bcast_S_S4 main_cst_22
  let main_v61 : IVec S4 1 := cmpf .olt main_v59 main_v60
  let main_c_23 : IVec S_ 1 := constantI S_ 1 1#1
  let main_v62 : IVec S_ 1 := (fun x v => Host.reduce IntOp.andi x v reducesTo_S4_S_d0 h_S_) main_v61 main_c_23
  let main_v63 : IVec S_ 1 := andi main_v58 main_v62
  let main_v64 : FVec F S4x50 .f32 := Host.absf main_arg15
  let main_cst_24 : FVec F S_ .f32 := constant S_ .f32 0x7F800000#32
  let main_v65 : FVec F S4x50 .f32 := broadcastInDim S4x50 ![] bcast_S_S4x50 main_cst_24
  let main_v66 : IVec S4x50 1 := cmpf .olt main_v64 main_v65
  let main_c_25 : IVec S_ 1 := constantI S_ 1 1#1
  let main_v67 : IVec S_ 1 := (fun x v => Host.reduce IntOp.andi x v reducesTo_S4x50_S_d0_1 h_S_) main_v66 main_c_25
  fn_part4 (F := F) main_arg16 main_v63 main_v67

def fn_part2 {F : FTy → Type} [FloatOps F] (main_arg9 : FVec F S32x16 .f32) (main_arg10 : FVec F S16 .f32) (main_arg11 : FVec F S16x8 .f32) (main_arg12 : FVec F S8 .f32) (main_arg13 : FVec F S8x4 .f32) (main_arg14 : FVec F S4 .f32) (main_arg15 : FVec F S4x50 .f32) (main_arg16 : FVec F S50 .f32) (main_v33 : IVec S_ 1) : IVec S_ 1 :=
  let main_v34 : FVec F S32x16 .f32 := Host.absf main_arg9
  let main_cst_12 : FVec F S_ .f32 := constant S_ .f32 0x7F800000#32
  let main_v35 : FVec F S32x16 .f32 := broadcastInDim S32x16 ![] bcast_S_S32x16 main_cst_12
  let main_v36 : IVec S32x16 1 := cmpf .olt main_v34 main_v35
  let main_c_13 : IVec S_ 1 := constantI S_ 1 1#1
  let main_v37 : IVec S_ 1 := (fun x v => Host.reduce IntOp.andi x v reducesTo_S32x16_S_d0_1 h_S_) main_v36 main_c_13
  let main_v38 : IVec S_ 1 := andi main_v33 main_v37
  let main_v39 : FVec F S16 .f32 := Host.absf main_arg10
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16x8 .f32 := Host.absf main_arg11
  let main_cst_16 : FVec F S_ .f32 := constant S_ .f32 0x7F800000#32
  let main_v45 : FVec F S16x8 .f32 := broadcastInDim S16x8 ![] bcast_S_S16x8 main_cst_16
  let main_v46 : IVec S16x8 1 := cmpf .olt main_v44 main_v45
  let main_c_17 : IVec S_ 1 := constantI S_ 1 1#1
  let main_v47 : IVec S_ 1 := (fun x v => Host.reduce IntOp.andi x v reducesTo_S16x8_S_d0_1 h_S_) main_v46 main_c_17
  let main_v48 : IVec S_ 1 := andi main_v43 main_v47
  let main_v49 : FVec F S8 .f32 := Host.absf main_arg12
  let main_cst_18 : FVec F S_ .f32 := constant S_ .f32 0x7F800000#32
  let main_v50 : FVec F S8 .f32 := broadcastInDim S8 ![] bcast_S_S8 main_cst_18
  fn_part3 (F := F) main_arg13 main_arg14 main_arg15 main_arg16 main_v48 main_v49 main_v50

def fn_part1 {F : FTy → Type} [FloatOps F] (main_arg6 : FVec F S64 .f32) (main_arg7 : FVec F S64x32 .f32) (main_arg8 : FVec F S32 .f32) (main_arg9 : FVec F S32x16 .f32) (main_arg10 : FVec F S16 .f32) (main_arg11 : FVec F S16x8 .f32) (main_arg12 : FVec F S8 .f32) (main_arg13 : FVec F S8x4 .f32) (main_arg14 : FVec F S4 .f32) (main_arg15 : FVec F S4x50 .f32) (main_arg16 : FVec F S50 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg7
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S100000x8 .f32) (main_arg1 : IVec S1000000 32) (main_arg2 : IVec S2x1000000 32) (main_arg3 : FVec F S16x128 .f32) (main_arg4 : FVec F S128 .f32) (main_arg5 : FVec F S128x64 .f32) (main_arg6 : FVec F S64 .f32) (main_arg7 : FVec F S64x32 .f32) (main_arg8 : FVec F S32 .f32) (main_arg9 : FVec F S32x16 .f32) (main_arg10 : FVec F S16 .f32) (main_arg11 : FVec F S16x8 .f32) (main_arg12 : FVec F S8 .f32) (main_arg13 : FVec F S8x4 .f32) (main_arg14 : FVec F S4 .f32) (main_arg15 : FVec F S4x50 .f32) (main_arg16 : FVec F S50 .f32) : IVec S_ 1 :=
  let main_v0 : FVec F S100000x8 .f32 := Host.absf main_arg0
  let main_cst : FVec F S_ .f32 := constant S_ .f32 0x7F800000#32
  let main_v1 : FVec F S100000x8 .f32 := broadcastInDim S100000x8 ![] bcast_S_S100000x8 main_cst
  let main_v2 : IVec S100000x8 1 := cmpf .olt main_v0 main_v1
  let main_c : IVec S_ 1 := constantI S_ 1 1#1
  let main_v3 : IVec S_ 1 := (fun x v => Host.reduce IntOp.andi x v reducesTo_S100000x8_S_d0_1 h_S_) main_v2 main_c
  let main_v4 : FVec F S16x128 .f32 := Host.absf main_arg3
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x8 : Shape := ⟨2, ![100000, 8]⟩
abbrev S1000000 : Shape := ⟨1, ![1000000]⟩
abbrev S2x1000000 : Shape := ⟨2, ![2, 1000000]⟩
abbrev S16x128 : Shape := ⟨2, ![16, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x4 : Shape := ⟨2, ![8, 4]⟩
abbrev S4 : Shape := ⟨1, ![4]⟩
abbrev S4x50 : Shape := ⟨2, ![4, 50]⟩
abbrev S50 : Shape := ⟨1, ![50]⟩
abbrev S1x1000000 : Shape := ⟨2, ![1, 1000000]⟩
abbrev S_ : Shape := ⟨0, ![]⟩
abbrev S1000000x1 : Shape := ⟨2, ![1000000, 1]⟩
abbrev S1000000x8 : Shape := ⟨2, ![1000000, 8]⟩
abbrev S1000000x16 : Shape := ⟨2, ![1000000, 16]⟩
abbrev S1000000x50 : Shape := ⟨2, ![1000000, 50]⟩
abbrev S10000x16 : Shape := ⟨2, ![10000, 16]⟩
abbrev S10000x50 : Shape := ⟨2, ![10000, 50]⟩
abbrev S10000x128 : Shape := ⟨2, ![10000, 128]⟩
abbrev S1x128 : Shape := ⟨2, ![1, 128]⟩
abbrev S10000x64 : Shape := ⟨2, ![10000, 64]⟩
abbrev S1x64 : Shape := ⟨2, ![1, 64]⟩
abbrev S10000x32 : Shape := ⟨2, ![10000, 32]⟩
abbrev S1x32 : Shape := ⟨2, ![1, 32]⟩
abbrev S1x16 : Shape := ⟨2, ![1, 16]⟩
abbrev S10000x8 : Shape := ⟨2, ![10000, 8]⟩
abbrev S1x8 : Shape := ⟨2, ![1, 8]⟩
abbrev S10000x4 : Shape := ⟨2, ![10000, 4]⟩
abbrev S1x4 : Shape := ⟨2, ![1, 4]⟩
abbrev S1x50 : Shape := ⟨2, ![1, 50]⟩

abbrev nBuf : Space → Nat
  | .hbm => 49
  | .vmem => 18
  | .smem => 0
  | _ => 0

abbrev bufTy : (tb : Table) → Fin (tcTables nBuf tb) → BufTy
  | .hbm, ⟨0, _⟩ => ⟨S100000x8, .f32⟩
  | .hbm, ⟨1, _⟩ => ⟨S1000000, .i32⟩
  | .hbm, ⟨2, _⟩ => ⟨S2x1000000, .i32⟩
  | .hbm, ⟨3, _⟩ => ⟨S16x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S32x16, .f32⟩
  | .hbm, ⟨10, _⟩ => ⟨S16, .f32⟩
  | .hbm, ⟨11, _⟩ => ⟨S16x8, .f32⟩
  | .hbm, ⟨12, _⟩ => ⟨S8, .f32⟩
  | .hbm, ⟨13, _⟩ => ⟨S8x4, .f32⟩
  | .hbm, ⟨14, _⟩ => ⟨S4, .f32⟩
  | .hbm, ⟨15, _⟩ => ⟨S4x50, .f32⟩
  | .hbm, ⟨16, _⟩ => ⟨S50, .f32⟩
  | .hbm, ⟨17, _⟩ => ⟨S1x1000000, .i32⟩
  | .hbm, ⟨18, _⟩ => ⟨S1000000, .i32⟩
  | .hbm, ⟨19, _⟩ => ⟨S_, .i32⟩
  | .hbm, ⟨20, _⟩ => ⟨S1000000, .i32⟩
  | .hbm, ⟨21, _⟩ => ⟨S1000000, .i1⟩
  | .hbm, ⟨22, _⟩ => ⟨S_, .i32⟩
  | .hbm, ⟨23, _⟩ => ⟨S1000000, .i32⟩
  | .hbm, ⟨24, _⟩ => ⟨S1000000, .i32⟩
  | .hbm, ⟨25, _⟩ => ⟨S1000000, .i32⟩
  | .hbm, ⟨26, _⟩ => ⟨S1000000x1, .i32⟩
  | .hbm, ⟨27, _⟩ => ⟨S1000000x8, .f32⟩
  | .hbm, ⟨28, _⟩ => ⟨S1x1000000, .i32⟩
  | .hbm, ⟨29, _⟩ => ⟨S1000000, .i32⟩
  | .hbm, ⟨30, _⟩ => ⟨S_, .i32⟩
  | .hbm, ⟨31, _⟩ => ⟨S1000000, .i32⟩
  | .hbm, ⟨32, _⟩ => ⟨S1000000, .i1⟩
  | .hbm, ⟨33, _⟩ => ⟨S_, .i32⟩
  | .hbm, ⟨34, _⟩ => ⟨S1000000, .i32⟩
  | .hbm, ⟨35, _⟩ => ⟨S1000000, .i32⟩
  | .hbm, ⟨36, _⟩ => ⟨S1000000, .i32⟩
  | .hbm, ⟨37, _⟩ => ⟨S1000000x1, .i32⟩
  | .hbm, ⟨38, _⟩ => ⟨S1000000x8, .f32⟩
  | .hbm, ⟨39, _⟩ => ⟨S1000000x16, .f32⟩
  | .hbm, ⟨40, _⟩ => ⟨S1000000x16, .bf16⟩
  | .hbm, ⟨41, _⟩ => ⟨S16x128, .bf16⟩
  | .hbm, ⟨42, _⟩ => ⟨S128x64, .bf16⟩
  | .hbm, ⟨43, _⟩ => ⟨S64x32, .bf16⟩
  | .hbm, ⟨44, _⟩ => ⟨S32x16, .bf16⟩
  | .hbm, ⟨45, _⟩ => ⟨S16x8, .bf16⟩
  | .hbm, ⟨46, _⟩ => ⟨S8x4, .bf16⟩
  | .hbm, ⟨47, _⟩ => ⟨S4x50, .bf16⟩
  | .hbm, ⟨48, _⟩ => ⟨S1000000x50, .f32⟩
  | .local _ .vmem, ⟨0, _⟩ => ⟨S10000x16, .bf16⟩
  | .local _ .vmem, ⟨1, _⟩ => ⟨S10000x16, .bf16⟩
  | .local _ .vmem, ⟨2, _⟩ => ⟨S16x128, .bf16⟩
  | .local _ .vmem, ⟨3, _⟩ => ⟨S128, .f32⟩
  | .local _ .vmem, ⟨4, _⟩ => ⟨S128x64, .bf16⟩
  | .local _ .vmem, ⟨5, _⟩ => ⟨S64, .f32⟩
  | .local _ .vmem, ⟨6, _⟩ => ⟨S64x32, .bf16⟩
  | .local _ .vmem, ⟨7, _⟩ => ⟨S32, .f32⟩
  | .local _ .vmem, ⟨8, _⟩ => ⟨S32x16, .bf16⟩
  | .local _ .vmem, ⟨9, _⟩ => ⟨S16, .f32⟩
  | .local _ .vmem, ⟨10, _⟩ => ⟨S16x8, .bf16⟩
  | .local _ .vmem, ⟨11, _⟩ => ⟨S8, .f32⟩
  | .local _ .vmem, ⟨12, _⟩ => ⟨S8x4, .bf16⟩
  | .local _ .vmem, ⟨13, _⟩ => ⟨S4, .f32⟩
  | .local _ .vmem, ⟨14, _⟩ => ⟨S4x50, .bf16⟩
  | .local _ .vmem, ⟨15, _⟩ => ⟨S50, .f32⟩
  | .local _ .vmem, ⟨16, _⟩ => ⟨S10000x50, .f32⟩
  | .local _ .vmem, ⟨17, _⟩ => ⟨S10000x50, .f32⟩
  | _, _ => ⟨S100000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c_1 : Ref sig .tc := ⟨.hbm, 30, rfl⟩
abbrev main_v11 : Ref sig .tc := ⟨.hbm, 31, rfl⟩
abbrev main_v12 : Ref sig .tc := ⟨.hbm, 32, rfl⟩
abbrev main_c_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x16 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x16 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x8 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x4 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x50 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S50 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S10000x50 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  concatenates_S1000000x8_S1000000x8_S1000000x16_d1 : Shape.Concatenates [S1000000x8, S1000000x8] S1000000x16 1
  bitsLt_bf16_f32 : FTy.bits .bf16 < FTy.bits .f32
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S32_S32_0 : ∀ a, (![0] : Fin 1 → Nat) a + S32.size a ≤ S32.size a
  h_S32 : 0 < S32.numel
  shapeCasts_S32_S1x32 : S32.ShapeCasts S1x32
  broadcasts_S1x32_S10000x32 : S1x32.Broadcasts S10000x32
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S16_S16_0 : ∀ a, (![0] : Fin 1 → Nat) a + S16.size a ≤ S16.size a
  h_S16 : 0 < S16.numel
  shapeCasts_S16_S1x16 : S16.ShapeCasts S1x16
  broadcasts_S1x16_S10000x16 : S1x16.Broadcasts S10000x16
  inb_S16x8_S16x8_0_0 : ∀ a, (![0, 0] : Fin 2 → Nat) a + S16x8.size a ≤ S16x8.size a
  h_S16x8 : 0 < S16x8.numel
  shapeCasts_S16x8_S16x8 : S16x8.ShapeCasts S16x8
  inb_S8_S8_0 : ∀ a, (![0] : Fin 1 → Nat) a + S8.size a ≤ S8.size a
  h_S8 : 0 < S8.numel
  shapeCasts_S8_S1x8 : S8.ShapeCasts S1x8
  broadcasts_S1x8_S10000x8 : S1x8.Broadcasts S10000x8
  inb_S8x4_S8x4_0_0 : ∀ a, (![0, 0] : Fin 2 → Nat) a + S8x4.size a ≤ S8x4.size a
  h_S8x4 : 0 < S8x4.numel
  shapeCasts_S8x4_S8x4 : S8x4.ShapeCasts S8x4
  inb_S4_S4_0 : ∀ a, (![0] : Fin 1 → Nat) a + S4.size a ≤ S4.size a
  h_S4 : 0 < S4.numel
  shapeCasts_S4_S1x4 : S4.ShapeCasts S1x4
  broadcasts_S1x4_S10000x4 : S1x4.Broadcasts S10000x4
  inb_S4x50_S4x50_0_0 : ∀ a, (![0, 0] : Fin 2 → Nat) a + S4x50.size a ≤ S4x50.size a
  h_S4x50 : 0 < S4x50.numel
  shapeCasts_S4x50_S4x50 : S4x50.ShapeCasts S4x50
  inb_S50_S50_0 : ∀ a, (![0] : Fin 1 → Nat) a + S50.size a ≤ S50.size a
  h_S50 : 0 < S50.numel
  shapeCasts_S50_S1x50 : S50.ShapeCasts S1x50
  broadcasts_S1x50_S10000x50 : S1x50.Broadcasts S10000x50
  inb_S10000x50_S10000x50_0_0 : ∀ a, (![0, 0] : Fin 2 → Nat) a + S10000x50.size a ≤ S10000x50.size a
  h_S10000x50 : 0 < S10000x50.numel
  gather_S100000x8_S1000000x1_S1000000x8_1_0_n_n_0_1_18_wf : GatherDims.WF S100000x8 S1000000x1 S1000000x8 [1] [0] [] [0] [] 1 ![1, 8]
  dot_S10000x16_S16x128_S10000x128_1_0_0_1_n_n_wf : DotDims.WF S10000x16 S16x128 S10000x128 [1] [0] [0] [1] [] []
  dot_S10000x128_S128x64_S10000x64_1_0_0_1_n_n_wf : DotDims.WF S10000x128 S128x64 S10000x64 [1] [0] [0] [1] [] []
  dot_S10000x64_S64x32_S10000x32_1_0_0_1_n_n_wf : DotDims.WF S10000x64 S64x32 S10000x32 [1] [0] [0] [1] [] []
  dot_S10000x32_S32x16_S10000x16_1_0_0_1_n_n_wf : DotDims.WF S10000x32 S32x16 S10000x16 [1] [0] [0] [1] [] []
  dot_S10000x16_S16x8_S10000x8_1_0_0_1_n_n_wf : DotDims.WF S10000x16 S16x8 S10000x8 [1] [0] [0] [1] [] []
  dot_S10000x8_S8x4_S10000x4_1_0_0_1_n_n_wf : DotDims.WF S10000x8 S8x4 S10000x4 [1] [0] [0] [1] [] []
  dot_S10000x4_S4x50_S10000x50_1_0_0_1_n_n_wf : DotDims.WF S10000x4 S4x50 S10000x50 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x16.size a ≤ S1000000x16.size a
  hwx0_0 : ∀ i : grid0.Coords, EltTy.bits .bf16 = 32 ∨ (Rect.block (s := S1000000x16) S10000x16.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .bf16 = 32 ∨ (Rect.block (s := S16x128) S16x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .bf16 = 32 ∨ (Rect.block (s := S128x64) S128x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x32.size a ≤ S64x32.size a
  hwx0_5 : ∀ i : grid0.Coords, EltTy.bits .bf16 = 32 ∨ (Rect.block (s := S64x32) S64x32.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32.size a ≤ S32.size a
  hwx0_6 : ∀ i : grid0.Coords, EltTy.bits .f32 = 32 ∨ (Rect.block (s := S32) S32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x16.size a ≤ S32x16.size a
  hwx0_7 : ∀ i : grid0.Coords, EltTy.bits .bf16 = 32 ∨ (Rect.block (s := S32x16) S32x16.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S16.size a ≤ S16.size a
  hwx0_8 : ∀ i : grid0.Coords, EltTy.bits .f32 = 32 ∨ (Rect.block (s := S16) S16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S16x8.size a ≤ S16x8.size a
  hwx0_9 : ∀ i : grid0.Coords, EltTy.bits .bf16 = 32 ∨ (Rect.block (s := S16x8) S16x8.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S8.size a ≤ S8.size a
  hwx0_10 : ∀ i : grid0.Coords, EltTy.bits .f32 = 32 ∨ (Rect.block (s := S8) S8.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S8x4.size a ≤ S8x4.size a
  hwx0_11 : ∀ i : grid0.Coords, EltTy.bits .bf16 = 32 ∨ (Rect.block (s := S8x4) S8x4.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S4.size a ≤ S4.size a
  hwx0_12 : ∀ i : grid0.Coords, EltTy.bits .f32 = 32 ∨ (Rect.block (s := S4) S4.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S4x50.size a ≤ S4x50.size a
  hwx0_13 : ∀ i : grid0.Coords, EltTy.bits .bf16 = 32 ∨ (Rect.block (s := S4x50) S4x50.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S50.size a ≤ S50.size a
  hwx0_14 : ∀ i : grid0.Coords, EltTy.bits .f32 = 32 ∨ (Rect.block (s := S50) S50.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S10000x50.size a ≤ S1000000x50.size a
  hwx0_15 : ∀ i : grid0.Coords, EltTy.bits .f32 = 32 ∨ (Rect.block (s := S1000000x50) S10000x50.size (cc0_transform_15 i) (hinb0_15 i)).WholeWords (EltTy.packing .f32)

variable [Facts₀]

def gather_S100000x8_S1000000x1_S1000000x8_1_0_n_n_0_1_18 : GatherDims S100000x8 S1000000x1 S1000000x8 where
  offsetDims := [1]
  collapsedSliceDims := [0]
  operandBatchingDims := []
  startIndicesBatchingDims := []
  startIndexMap := [0]
  indexVectorDim := 1
  sliceSizes := ![1, 8]
  wf := gather_S100000x8_S1000000x1_S1000000x8_1_0_n_n_0_1_18_wf
def dot_S10000x16_S16x128_S10000x128_1_0_0_1_n_n : DotDims S10000x16 S16x128 S10000x128 where
  lhsContracting := [1]
  rhsContracting := [0]
  lhsNonContracting := [0]
  rhsNonContracting := [1]
  lhsBatch := []
  rhsBatch := []
  wf := dot_S10000x16_S16x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def dot_S10000x16_S16x8_S10000x8_1_0_0_1_n_n : DotDims S10000x16 S16x8 S10000x8 where
  lhsContracting := [1]
  rhsContracting := [0]
  lhsNonContracting := [0]
  rhsNonContracting := [1]
  lhsBatch := []
  rhsBatch := []
  wf := dot_S10000x16_S16x8_S10000x8_1_0_0_1_n_n_wf
def dot_S10000x8_S8x4_S10000x4_1_0_0_1_n_n : DotDims S10000x8 S8x4 S10000x4 where
  lhsContracting := [1]
  rhsContracting := [0]
  lhsNonContracting := [0]
  rhsNonContracting := [1]
  lhsBatch := []
  rhsBatch := []
  wf := dot_S10000x8_S8x4_S10000x4_1_0_0_1_n_n_wf
def dot_S10000x4_S4x50_S10000x50_1_0_0_1_n_n : DotDims S10000x4 S4x50 S10000x50 where
  lhsContracting := [1]
  rhsContracting := [0]
  lhsNonContracting := [0]
  rhsNonContracting := [1]
  lhsBatch := []
  rhsBatch := []
  wf := dot_S10000x4_S4x50_S10000x50_1_0_0_1_n_n_wf

abbrev win0_0 : Pipeline.Window sig grid0 :=
  Pipeline.Window.ofSpec (Memref.whole main_v19) S10000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S64x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S32x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v24) S16x8.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S8.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v25) S8x4.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg14) S4.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v26) S4x50.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg16) S50.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v27) S10000x50.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S100000x8 : Shape := ⟨2, ![100000, 8]⟩
abbrev S1000000 : Shape := ⟨1, ![1000000]⟩
abbrev S2x1000000 : Shape := ⟨2, ![2, 1000000]⟩
abbrev S16x128 : Shape := ⟨2, ![16, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x4 : Shape := ⟨2, ![8, 4]⟩
abbrev S4 : Shape := ⟨1, ![4]⟩
abbrev S4x50 : Shape := ⟨2, ![4, 50]⟩
abbrev S50 : Shape := ⟨1, ![50]⟩
abbrev S1x1000000 : Shape := ⟨2, ![1, 1000000]⟩
abbrev S_ : Shape := ⟨0, ![]⟩
abbrev S1000000x1 : Shape := ⟨2, ![1000000, 1]⟩
abbrev S1000000x8 : Shape := ⟨2, ![1000000, 8]⟩
abbrev S1000000x16 : Shape := ⟨2, ![1000000, 16]⟩
abbrev S1000000x128 : Shape := ⟨2, ![1000000, 128]⟩
abbrev S1x128 : Shape := ⟨2, ![1, 128]⟩
abbrev S1000000x64 : Shape := ⟨2, ![1000000, 64]⟩
abbrev S1x64 : Shape := ⟨2, ![1, 64]⟩
abbrev S1000000x32 : Shape := ⟨2, ![1000000, 32]⟩
abbrev S1x32 : Shape := ⟨2, ![1, 32]⟩
abbrev S1x16 : Shape := ⟨2, ![1, 16]⟩
abbrev S1x8 : Shape := ⟨2, ![1, 8]⟩
abbrev S1000000x4 : Shape := ⟨2, ![1000000, 4]⟩
abbrev S1x4 : Shape := ⟨2, ![1, 4]⟩
abbrev S1000000x50 : Shape := ⟨2, ![1000000, 50]⟩
abbrev S1x50 : Shape := ⟨2, ![1, 50]⟩

abbrev nBuf : Space → Nat
  | .hbm => 83
  | .vmem => 0
  | .smem => 0
  | _ => 0

abbrev bufTy : (tb : Table) → Fin (tcTables nBuf tb) → BufTy
  | .hbm, ⟨0, _⟩ => ⟨S100000x8, .f32⟩
  | .hbm, ⟨1, _⟩ => ⟨S1000000, .i32⟩
  | .hbm, ⟨2, _⟩ => ⟨S2x1000000, .i32⟩
  | .hbm, ⟨3, _⟩ => ⟨S16x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S32x16, .f32⟩
  | .hbm, ⟨10, _⟩ => ⟨S16, .f32⟩
  | .hbm, ⟨11, _⟩ => ⟨S16x8, .f32⟩
  | .hbm, ⟨12, _⟩ => ⟨S8, .f32⟩
  | .hbm, ⟨13, _⟩ => ⟨S8x4, .f32⟩
  | .hbm, ⟨14, _⟩ => ⟨S4, .f32⟩
  | .hbm, ⟨15, _⟩ => ⟨S4x50, .f32⟩
  | .hbm, ⟨16, _⟩ => ⟨S50, .f32⟩
  | .hbm, ⟨17, _⟩ => ⟨S1x1000000, .i32⟩
  | .hbm, ⟨18, _⟩ => ⟨S1000000, .i32⟩
  | .hbm, ⟨19, _⟩ => ⟨S_, .i32⟩
  | .hbm, ⟨20, _⟩ => ⟨S1000000, .i32⟩
  | .hbm, ⟨21, _⟩ => ⟨S1000000, .i1⟩
  | .hbm, ⟨22, _⟩ => ⟨S_, .i32⟩
  | .hbm, ⟨23, _⟩ => ⟨S1000000, .i32⟩
  | .hbm, ⟨24, _⟩ => ⟨S1000000, .i32⟩
  | .hbm, ⟨25, _⟩ => ⟨S1000000, .i32⟩
  | .hbm, ⟨26, _⟩ => ⟨S1000000x1, .i32⟩
  | .hbm, ⟨27, _⟩ => ⟨S1000000x8, .f32⟩
  | .hbm, ⟨28, _⟩ => ⟨S1x1000000, .i32⟩
  | .hbm, ⟨29, _⟩ => ⟨S1000000, .i32⟩
  | .hbm, ⟨30, _⟩ => ⟨S_, .i32⟩
  | .hbm, ⟨31, _⟩ => ⟨S1000000, .i32⟩
  | .hbm, ⟨32, _⟩ => ⟨S1000000, .i1⟩
  | .hbm, ⟨33, _⟩ => ⟨S_, .i32⟩
  | .hbm, ⟨34, _⟩ => ⟨S1000000, .i32⟩
  | .hbm, ⟨35, _⟩ => ⟨S1000000, .i32⟩
  | .hbm, ⟨36, _⟩ => ⟨S1000000, .i32⟩
  | .hbm, ⟨37, _⟩ => ⟨S1000000x1, .i32⟩
  | .hbm, ⟨38, _⟩ => ⟨S1000000x8, .f32⟩
  | .hbm, ⟨39, _⟩ => ⟨S1000000x16, .f32⟩
  | .hbm, ⟨40, _⟩ => ⟨S1000000x128, .f32⟩
  | .hbm, ⟨41, _⟩ => ⟨S1x128, .f32⟩
  | .hbm, ⟨42, _⟩ => ⟨S1000000x128, .f32⟩
  | .hbm, ⟨43, _⟩ => ⟨S1000000x128, .f32⟩
  | .hbm, ⟨44, _⟩ => ⟨S_, .f32⟩
  | .hbm, ⟨45, _⟩ => ⟨S1000000x128, .f32⟩
  | .hbm, ⟨46, _⟩ => ⟨S1000000x128, .f32⟩
  | .hbm, ⟨47, _⟩ => ⟨S1000000x64, .f32⟩
  | .hbm, ⟨48, _⟩ => ⟨S1x64, .f32⟩
  | .hbm, ⟨49, _⟩ => ⟨S1000000x64, .f32⟩
  | .hbm, ⟨50, _⟩ => ⟨S1000000x64, .f32⟩
  | .hbm, ⟨51, _⟩ => ⟨S_, .f32⟩
  | .hbm, ⟨52, _⟩ => ⟨S1000000x64, .f32⟩
  | .hbm, ⟨53, _⟩ => ⟨S1000000x64, .f32⟩
  | .hbm, ⟨54, _⟩ => ⟨S1000000x32, .f32⟩
  | .hbm, ⟨55, _⟩ => ⟨S1x32, .f32⟩
  | .hbm, ⟨56, _⟩ => ⟨S1000000x32, .f32⟩
  | .hbm, ⟨57, _⟩ => ⟨S1000000x32, .f32⟩
  | .hbm, ⟨58, _⟩ => ⟨S_, .f32⟩
  | .hbm, ⟨59, _⟩ => ⟨S1000000x32, .f32⟩
  | .hbm, ⟨60, _⟩ => ⟨S1000000x32, .f32⟩
  | .hbm, ⟨61, _⟩ => ⟨S1000000x16, .f32⟩
  | .hbm, ⟨62, _⟩ => ⟨S1x16, .f32⟩
  | .hbm, ⟨63, _⟩ => ⟨S1000000x16, .f32⟩
  | .hbm, ⟨64, _⟩ => ⟨S1000000x16, .f32⟩
  | .hbm, ⟨65, _⟩ => ⟨S1000000x8, .f32⟩
  | .hbm, ⟨66, _⟩ => ⟨S1x8, .f32⟩
  | .hbm, ⟨67, _⟩ => ⟨S1000000x8, .f32⟩
  | .hbm, ⟨68, _⟩ => ⟨S1000000x8, .f32⟩
  | .hbm, ⟨69, _⟩ => ⟨S_, .f32⟩
  | .hbm, ⟨70, _⟩ => ⟨S1000000x8, .f32⟩
  | .hbm, ⟨71, _⟩ => ⟨S1000000x8, .f32⟩
  | .hbm, ⟨72, _⟩ => ⟨S1000000x4, .f32⟩
  | .hbm, ⟨73, _⟩ => ⟨S1x4, .f32⟩
  | .hbm, ⟨74, _⟩ => ⟨S1000000x4, .f32⟩
  | .hbm, ⟨75, _⟩ => ⟨S1000000x4, .f32⟩
  | .hbm, ⟨76, _⟩ => ⟨S_, .f32⟩
  | .hbm, ⟨77, _⟩ => ⟨S1000000x4, .f32⟩
  | .hbm, ⟨78, _⟩ => ⟨S1000000x4, .f32⟩
  | .hbm, ⟨79, _⟩ => ⟨S1000000x50, .f32⟩
  | .hbm, ⟨80, _⟩ => ⟨S1x50, .f32⟩
  | .hbm, ⟨81, _⟩ => ⟨S1000000x50, .f32⟩
  | .hbm, ⟨82, _⟩ => ⟨S1000000x50, .f32⟩
  | _, _ => ⟨S100000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c_1 : Ref sig .tc := ⟨.hbm, 30, rfl⟩
abbrev main_v11 : Ref sig .tc := ⟨.hbm, 31, rfl⟩
abbrev main_v12 : Ref sig .tc := ⟨.hbm, 32, rfl⟩
abbrev main_c_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_call0_cst : Ref sig .tc := ⟨.hbm, 44, rfl⟩
abbrev main_call0_v0 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_call1_cst : Ref sig .tc := ⟨.hbm, 51, rfl⟩
abbrev main_call1_v0 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_call2_cst : Ref sig .tc := ⟨.hbm, 58, rfl⟩
abbrev main_call2_v0 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_call3_cst : Ref sig .tc := ⟨.hbm, 69, rfl⟩
abbrev main_call3_v0 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_call4_cst : Ref sig .tc := ⟨.hbm, 76, rfl⟩
abbrev main_call4_v0 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  concatenates_S1000000x8_S1000000x8_S1000000x16_d1 : Shape.Concatenates [S1000000x8, S1000000x8] S1000000x16 1
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S32_S1x32_1 : S32.BroadcastsInDim S1x32 (![1] : Fin 1 → Fin S1x32.rank)
  bcast_S1x32_S1000000x32_0_1 : S1x32.BroadcastsInDim S1000000x32 (![0, 1] : Fin 2 → Fin S1000000x32.rank)
  bcast_S_S1000000x32 : S_.BroadcastsInDim S1000000x32 (![] : Fin 0 → Fin S1000000x32.rank)
  bcast_S16_S1x16_1 : S16.BroadcastsInDim S1x16 (![1] : Fin 1 → Fin S1x16.rank)
  bcast_S1x16_S1000000x16_0_1 : S1x16.BroadcastsInDim S1000000x16 (![0, 1] : Fin 2 → Fin S1000000x16.rank)
  bcast_S8_S1x8_1 : S8.BroadcastsInDim S1x8 (![1] : Fin 1 → Fin S1x8.rank)
  bcast_S1x8_S1000000x8_0_1 : S1x8.BroadcastsInDim S1000000x8 (![0, 1] : Fin 2 → Fin S1000000x8.rank)
  bcast_S_S1000000x8 : S_.BroadcastsInDim S1000000x8 (![] : Fin 0 → Fin S1000000x8.rank)
  bcast_S4_S1x4_1 : S4.BroadcastsInDim S1x4 (![1] : Fin 1 → Fin S1x4.rank)
  bcast_S1x4_S1000000x4_0_1 : S1x4.BroadcastsInDim S1000000x4 (![0, 1] : Fin 2 → Fin S1000000x4.rank)
  bcast_S_S1000000x4 : S_.BroadcastsInDim S1000000x4 (![] : Fin 0 → Fin S1000000x4.rank)
  bcast_S50_S1x50_1 : S50.BroadcastsInDim S1x50 (![1] : Fin 1 → Fin S1x50.rank)
  bcast_S1x50_S1000000x50_0_1 : S1x50.BroadcastsInDim S1000000x50 (![0, 1] : Fin 2 → Fin S1000000x50.rank)
  gather_S100000x8_S1000000x1_S1000000x8_1_0_n_n_0_1_18_wf : GatherDims.WF S100000x8 S1000000x1 S1000000x8 [1] [0] [] [0] [] 1 ![1, 8]
  dot_S1000000x16_S16x128_S1000000x128_1_0_0_1_n_n_wf : DotDims.WF S1000000x16 S16x128 S1000000x128 [1] [0] [0] [1] [] []
  dot_S1000000x128_S128x64_S1000000x64_1_0_0_1_n_n_wf : DotDims.WF S1000000x128 S128x64 S1000000x64 [1] [0] [0] [1] [] []
  dot_S1000000x64_S64x32_S1000000x32_1_0_0_1_n_n_wf : DotDims.WF S1000000x64 S64x32 S1000000x32 [1] [0] [0] [1] [] []
  dot_S1000000x32_S32x16_S1000000x16_1_0_0_1_n_n_wf : DotDims.WF S1000000x32 S32x16 S1000000x16 [1] [0] [0] [1] [] []
  dot_S1000000x16_S16x8_S1000000x8_1_0_0_1_n_n_wf : DotDims.WF S1000000x16 S16x8 S1000000x8 [1] [0] [0] [1] [] []
  dot_S1000000x8_S8x4_S1000000x4_1_0_0_1_n_n_wf : DotDims.WF S1000000x8 S8x4 S1000000x4 [1] [0] [0] [1] [] []
  dot_S1000000x4_S4x50_S1000000x50_1_0_0_1_n_n_wf : DotDims.WF S1000000x4 S4x50 S1000000x50 [1] [0] [0] [1] [] []

variable [Facts₀]

def gather_S100000x8_S1000000x1_S1000000x8_1_0_n_n_0_1_18 : GatherDims S100000x8 S1000000x1 S1000000x8 where
  offsetDims := [1]
  collapsedSliceDims := [0]
  operandBatchingDims := []
  startIndicesBatchingDims := []
  startIndexMap := [0]
  indexVectorDim := 1
  sliceSizes := ![1, 8]
  wf := gather_S100000x8_S1000000x1_S1000000x8_1_0_n_n_0_1_18_wf
def dot_S1000000x16_S16x128_S1000000x128_1_0_0_1_n_n : DotDims S1000000x16 S16x128 S1000000x128 where
  lhsContracting := [1]
  rhsContracting := [0]
  lhsNonContracting := [0]
  rhsNonContracting := [1]
  lhsBatch := []
  rhsBatch := []
  wf := dot_S1000000x16_S16x128_S1000000x128_1_0_0_1_n_n_wf
def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf
def dot_S1000000x64_S64x32_S1000000x32_1_0_0_1_n_n : DotDims S1000000x64 S64x32 S1000000x32 where
  lhsContracting := [1]
  rhsContracting := [0]
  lhsNonContracting := [0]
  rhsNonContracting := [1]
  lhsBatch := []
  rhsBatch := []
  wf := dot_S1000000x64_S64x32_S1000000x32_1_0_0_1_n_n_wf
def dot_S1000000x32_S32x16_S1000000x16_1_0_0_1_n_n : DotDims S1000000x32 S32x16 S1000000x16 where
  lhsContracting := [1]
  rhsContracting := [0]
  lhsNonContracting := [0]
  rhsNonContracting := [1]
  lhsBatch := []
  rhsBatch := []
  wf := dot_S1000000x32_S32x16_S1000000x16_1_0_0_1_n_n_wf
def dot_S1000000x16_S16x8_S1000000x8_1_0_0_1_n_n : DotDims S1000000x16 S16x8 S1000000x8 where
  lhsContracting := [1]
  rhsContracting := [0]
  lhsNonContracting := [0]
  rhsNonContracting := [1]
  lhsBatch := []
  rhsBatch := []
  wf := dot_S1000000x16_S16x8_S1000000x8_1_0_0_1_n_n_wf
def dot_S1000000x8_S8x4_S1000000x4_1_0_0_1_n_n : DotDims S1000000x8 S8x4 S1000000x4 where
  lhsContracting := [1]
  rhsContracting := [0]
  lhsNonContracting := [0]
  rhsNonContracting := [1]
  lhsBatch := []
  rhsBatch := []
  wf := dot_S1000000x8_S8x4_S1000000x4_1_0_0_1_n_n_wf
def dot_S1000000x4_S4x50_S1000000x50_1_0_0_1_n_n : DotDims S1000000x4 S4x50 S1000000x50 where
  lhsContracting := [1]
  rhsContracting := [0]
  lhsNonContracting := [0]
  rhsNonContracting := [1]
  lhsBatch := []
  rhsBatch := []
  wf := dot_S1000000x4_S4x50_S1000000x50_1_0_0_1_n_n_wf

class Facts : Prop extends Facts₀ where

variable [Facts]
-- ==== Proof.LibDenseRows.lean ====
/-
  A dense layer read one row at a time, on the extended reals.

  For an `[R, K]` array `a`, a `[K, N]` array `w` and an `[N]` array `b`, row `r` of `a · w + b` is
  `n ↦ (∑ k, a r k * w k n) + b n`: it depends on row `r` of `a` alone. The lemmas here read that row off the
  two spellings a program gives the layer — a matrix product accumulated into the zero splat plus a
  `[N] → [1, N] → [R, N]` cast-and-broadcast of the bias, and a host `dot_general` plus the bias broadcast in
  dimension twice — for the plain dimension numbers (contract the left operand's last axis with the right operand's
  first, no batch axis), at any extents. Both spellings give the same function `affine` of the row, so a chain of
  layers computed on a block of rows and the same chain computed on all rows agree row by row.
-/
import Idealize.ShloMosaic.Lib.ValueLayout
import Idealize.ShloMosaic.Lib.ValueIdx
import Idealize.ShloMosaic.PureOps.Ideal.Laws

noncomputable section

namespace Cert.DenseRows

open Idealize.ShloMosaic Idealize.ShloMosaic.ValueIdx

/-! ## Rows, matrices, vectors as plain functions -/

/-- Row `r` of an `[R, K]` array. -/
def row {R K : ℕ} (H : (⟨2, ![R, K]⟩ : Shape).Idx → EReal) (r : Fin R) : Fin K → EReal := fun k => H (ix2 r k)

/-- A `[K, N]` array as a matrix. -/
def mat {K N : ℕ} (W : (⟨2, ![K, N]⟩ : Shape).Idx → EReal) : Fin K → Fin N → EReal := fun k n => W (ix2 k n)

/-- An `[N]` array as a vector. -/
def vec {N : ℕ} (b : (⟨1, ![N]⟩ : Shape).Idx → EReal) : Fin N → EReal := fun n => b (ix1 n)

/-- One dense layer applied to one row: `h · W + b`. -/
def affine {K N : ℕ} (h : Fin K → EReal) (W : Fin K → Fin N → EReal) (b : Fin N → EReal) : Fin N → EReal :=
  fun n => (∑ k : Fin K, h k * W k n) + b n

/-- The entrywise maximum of a row with a fixed threshold `z` (a rectifier when `z` is zero). -/
def floorAt {N : ℕ} (z : EReal) (v : Fin N → EReal) : Fin N → EReal := fun n => max (v n) z

/-! ## The plain contraction, re-indexed by the contracted coordinate -/

/-- The contraction sum of the plain dimension numbers at result index `(r, n)` runs over the contracted
    coordinate `k`: the left operand is read at `(r, k)`, the right at `(k, n)`. -/
theorem plain_contr_sum {M K N : ℕ} (f : (⟨2, ![M, K]⟩ : Shape).Idx → EReal) (g : (⟨2, ![K, N]⟩ : Shape).Idx → EReal)
    (r : Fin M) (n : Fin N) :
    ∑ q : (DotDims.plain M K N).contr.Idx,
        f ((DotDims.plain M K N).lhsIdx (ix2 r n) q) * g ((DotDims.plain M K N).rhsIdx (ix2 r n) q)
      = ∑ k : Fin K, f (ix2 r k) * g (ix2 k n) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r n) ((contrEquiv1 (DotDims.plain M K N) K rfl rfl).symm k) = ix2 r k :=
    funext fun a => Fin.ext (by
      match a with
      | ⟨0, _⟩ =>
        show ((DotDims.plain M K N).lhsIdx (ix2 r n) _ 0).val = r.val
        unfold DotDims.lhsIdx
        rw [dif_neg (show ¬(0 : Fin 2) ∈ (DotDims.plain M K N).lhsBatch from List.not_mem_nil),
          dif_pos (show (0 : Fin 2) ∈ (DotDims.plain M K N).lhsNonContracting from List.mem_singleton.mpr rfl)]
        rfl
      | ⟨1, _⟩ => exact ((DotDims.plain M K N).lhsIdx_val_of_single rfl (ix2 r n) _).trans hk)
  have er : (DotDims.plain M K N).rhsIdx (ix2 r n) ((contrEquiv1 (DotDims.plain M K N) K rfl rfl).symm k) = ix2 k n :=
    funext fun a => Fin.ext (by
      match a with
      | ⟨0, _⟩ => exact ((DotDims.plain M K N).rhsIdx_val_of_single rfl (ix2 r n) _).trans hk
      | ⟨1, _⟩ =>
        show ((DotDims.plain M K N).rhsIdx (ix2 r n) _ 1).val = n.val
        unfold DotDims.rhsIdx
        rw [dif_neg (show ¬(1 : Fin 2) ∈ (DotDims.plain M K N).rhsBatch from List.not_mem_nil),
          dif_pos (show (1 : Fin 2) ∈ (DotDims.plain M K N).rhsNonContracting from List.mem_singleton.mpr rfl)]
        rfl)
  rw [el, er]

/-! ## The bias, broadcast over the rows -/

/-- An `[N]` array cast to `[1, N]` and broadcast to `[R, N]` reads, at `(r, n)`, the array at `n`. -/
theorem castBroadcast_apply {α : Type} {R N : ℕ} (b : (⟨1, ![N]⟩ : Shape).Idx → α)
    (hc : (⟨1, ![N]⟩ : Shape).ShapeCasts ⟨2, ![1, N]⟩) (hb : (⟨2, ![1, N]⟩ : Shape).Broadcasts ⟨2, ![R, N]⟩)
    (r : Fin R) (n : Fin N) :
    broadcastTo ⟨2, ![R, N]⟩ (shapeCast ⟨2, ![1, N]⟩ b hc) hb (ix2 r n) = b (ix1 n) := by
  rw [broadcastTo_1b_ab_apply, shapeCast_a_1a_apply]

/-- An `[N]` array broadcast in dimension to `[1, N]` (its axis the second) and then to `[R, N]` reads, at
    `(r, n)`, the array at `n`. -/
theorem broadcastTwice_apply {α : Type} {R N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) (n : Fin N) :
    broadcastInDim ⟨2, ![R, N]⟩ ![0, 1] h2 (broadcastInDim ⟨2, ![1, N]⟩ ![1] h1 b) (ix2 r n) = b (ix1 n) := by
  have hN : n.val = if N = 1 then 0 else n.val := by
    split
    · have := n.isLt; omega
    · rfl
  rw [broadcastInDim_apply ![0, 1] h2 _ (ix2 r n) (ix2 (0 : Fin 1) n) (fun a => by
      match a with
      | ⟨0, _⟩ => rfl
      | ⟨1, _⟩ => exact hN),
    broadcastInDim_apply ![1] h1 b (ix2 (0 : Fin 1) n) (ix1 n) (fun a => by
      match a with
      | ⟨0, _⟩ => exact hN)]

/-- A rank-zero array broadcast in dimension to any shape reads its one entry everywhere. -/
theorem splat_apply {α : Type} {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-! ## A layer's row, in its two spellings -/

/-- Row `r` of a matrix product accumulated into the zero splat, plus the cast-and-broadcast bias. -/
theorem row_matmul_bias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (r : Fin R) :
    row (addf (matmul d prec a w (constant (F := Ideal) ⟨2, ![R, N]⟩ .f32 0x00000000#32))
          (broadcastTo ⟨2, ![R, N]⟩ (shapeCast ⟨2, ![1, N]⟩ b hc) hb)) r
      = affine (row a r) (mat w) (vec b) := by
  subst hd
  funext n
  show FloatOps.matmul (DotDims.plain R K N) prec a w (constant (F := Ideal) ⟨2, ![R, N]⟩ .f32 0x00000000#32) (ix2 r n)
      + broadcastTo ⟨2, ![R, N]⟩ (shapeCast ⟨2, ![1, N]⟩ b hc) hb (ix2 r n) = _
  rw [Ideal.matmul_constant_zero_apply, plain_contr_sum, castBroadcast_apply]
  rfl

/-- Row `r` of a host `dot_general` plus the bias broadcast in dimension twice. -/
theorem row_dotGeneral_bias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) :
    row (addf (Host.dotGeneral d prec a w)
          (broadcastInDim ⟨2, ![R, N]⟩ ![0, 1] h2 (broadcastInDim ⟨2, ![1, N]⟩ ![1] h1 b))) r
      = affine (row a r) (mat w) (vec b) := by
  subst hd
  funext n
  show FloatOps.dotGeneral (DotDims.plain R K N) prec .single a w (ix2 r n)
      + broadcastInDim ⟨2, ![R, N]⟩ ![0, 1] h2 (broadcastInDim ⟨2, ![1, N]⟩ ![1] h1 b) (ix2 r n) = _
  rw [Ideal.dotGeneral_apply, plain_contr_sum, broadcastTwice_apply]
  rfl

/-- Row `r` of the entrywise maximum with a splat scalar. -/
theorem row_max_splat {R N : ℕ} (v : FVec Ideal ⟨2, ![R, N]⟩ .f32) (z : Ideal .f32) (r : Fin R) :
    row (maximumf v (broadcast ⟨2, ![R, N]⟩ z)) r = floorAt z (row v r) := rfl

/-- Row `r` of the entrywise maximum with a rank-zero constant broadcast in dimension. -/
theorem row_max_splatInDim {R N : ℕ} (v : FVec Ideal ⟨2, ![R, N]⟩ .f32)
    (dims : Fin (⟨0, ![]⟩ : Shape).rank → Fin (⟨2, ![R, N]⟩ : Shape).rank)
    (h : (⟨0, ![]⟩ : Shape).BroadcastsInDim ⟨2, ![R, N]⟩ dims) (wd : BitVec FTy.f32.bits) (r : Fin R) :
    row (maximumf v (broadcastInDim ⟨2, ![R, N]⟩ dims h (constant (F := Ideal) ⟨0, ![]⟩ .f32 wd))) r
      = floorAt (Ideal.ofBits .f32 wd) (row v r) := by
  funext n
  show max (v (ix2 r n)) (broadcastInDim ⟨2, ![R, N]⟩ dims h (constant (F := Ideal) ⟨0, ![]⟩ .f32 wd) (ix2 r n)) = _
  rw [splat_apply]
  rfl

/-- A change of float format leaves every row as it was: on the extended reals it is the identity. -/
theorem row_truncf {R N : ℕ} {φ ψ : FTy} (v : FVec Ideal ⟨2, ![R, N]⟩ φ) (h : ψ.bits < φ.bits) (r : Fin R) :
    row (truncf ψ v h : FVec Ideal ⟨2, ![R, N]⟩ ψ) r = row v r := rfl

/-- A shape cast to the same shape leaves a matrix as it was. -/
theorem mat_shapeCast_self {K N : ℕ} (w : (⟨2, ![K, N]⟩ : Shape).Idx → EReal)
    (h : (⟨2, ![K, N]⟩ : Shape).ShapeCasts ⟨2, ![K, N]⟩) :
    mat (shapeCast ⟨2, ![K, N]⟩ w h) = mat w := by
  rw [shapeCast_self]

/-- A shape cast to the same shape leaves every row as it was. -/
theorem row_shapeCast_self {R N : ℕ} (v : (⟨2, ![R, N]⟩ : Shape).Idx → EReal)
    (h : (⟨2, ![R, N]⟩ : Shape).ShapeCasts ⟨2, ![R, N]⟩) (r : Fin R) :
    row (shapeCast ⟨2, ![R, N]⟩ v h) r = row v r := by
  rw [shapeCast_self]

end Cert.DenseRows

end
-- ==== Proof.Spec.lean ====
/-
  The function both programs compute, stated once.

  Every edge `e` carries a feature row `H e` of sixteen numbers (the two endpoint rows of the node table, side by
  side). Seven dense layers follow, of widths 16 → 128 → 64 → 32 → 16 → 8 → 4 → 50, each `h ↦ h · W + b`, with the
  entrywise maximum against the threshold `z` after layers one, two, three, five and six, and none after layers four
  and seven. The result at `(e, n)` depends on row `e` of `H` alone: that is why computing it block of rows by block
  of rows and computing it on all rows at once give the same array.
-/
import proofs.«154779_j72980084293700_1_alg».proof.Proof.LibDenseRows

noncomputable section

namespace Cert.EdgeMlp

open Cert.DenseRows Idealize.ShloMosaic Idealize.ShloMosaic.ValueIdx

/-- The threshold of the rectifier: the programs' zero word, kept as a word (it is the same word on both sides and is
    never evaluated). -/
def zeroWord : EReal := Ideal.ofBits .f32 0x00000000#32

/-- The seven layers applied to one feature row. -/
def mlp (h : Fin 16 → EReal)
    (W1 : Fin 16 → Fin 128 → EReal) (b1 : Fin 128 → EReal) (W2 : Fin 128 → Fin 64 → EReal) (b2 : Fin 64 → EReal)
    (W3 : Fin 64 → Fin 32 → EReal) (b3 : Fin 32 → EReal) (W4 : Fin 32 → Fin 16 → EReal) (b4 : Fin 16 → EReal)
    (W5 : Fin 16 → Fin 8 → EReal) (b5 : Fin 8 → EReal) (W6 : Fin 8 → Fin 4 → EReal) (b6 : Fin 4 → EReal)
    (W7 : Fin 4 → Fin 50 → EReal) (b7 : Fin 50 → EReal) : Fin 50 → EReal :=
  affine (floorAt zeroWord (affine (floorAt zeroWord (affine (affine (floorAt zeroWord (affine (floorAt zeroWord
    (affine (floorAt zeroWord (affine h W1 b1)) W2 b2)) W3 b3)) W4 b4) W5 b5)) W6 b6)) W7 b7

/-- The whole result: for `R` feature rows, entry `(e, n)` is the seven layers of row `e` at `n`. -/
def scores {R : ℕ} (H : (⟨2, ![R, 16]⟩ : Shape).Idx → EReal)
    (W1 : (⟨2, ![16, 128]⟩ : Shape).Idx → EReal) (b1 : (⟨1, ![128]⟩ : Shape).Idx → EReal)
    (W2 : (⟨2, ![128, 64]⟩ : Shape).Idx → EReal) (b2 : (⟨1, ![64]⟩ : Shape).Idx → EReal)
    (W3 : (⟨2, ![64, 32]⟩ : Shape).Idx → EReal) (b3 : (⟨1, ![32]⟩ : Shape).Idx → EReal)
    (W4 : (⟨2, ![32, 16]⟩ : Shape).Idx → EReal) (b4 : (⟨1, ![16]⟩ : Shape).Idx → EReal)
    (W5 : (⟨2, ![16, 8]⟩ : Shape).Idx → EReal) (b5 : (⟨1, ![8]⟩ : Shape).Idx → EReal)
    (W6 : (⟨2, ![8, 4]⟩ : Shape).Idx → EReal) (b6 : (⟨1, ![4]⟩ : Shape).Idx → EReal)
    (W7 : (⟨2, ![4, 50]⟩ : Shape).Idx → EReal) (b7 : (⟨1, ![50]⟩ : Shape).Idx → EReal) :
    (⟨2, ![R, 50]⟩ : Shape).Idx → EReal :=
  fun i => mlp (row H (i 0)) (mat W1) (vec b1) (mat W2) (vec b2) (mat W3) (vec b3) (mat W4) (vec b4)
    (mat W5) (vec b5) (mat W6) (vec b6) (mat W7) (vec b7) (i 1)

/-- Row `e` of the whole result is the seven layers of row `e`. -/
theorem row_scores {R : ℕ} (H : (⟨2, ![R, 16]⟩ : Shape).Idx → EReal)
    (W1 : (⟨2, ![16, 128]⟩ : Shape).Idx → EReal) (b1 : (⟨1, ![128]⟩ : Shape).Idx → EReal)
    (W2 : (⟨2, ![128, 64]⟩ : Shape).Idx → EReal) (b2 : (⟨1, ![64]⟩ : Shape).Idx → EReal)
    (W3 : (⟨2, ![64, 32]⟩ : Shape).Idx → EReal) (b3 : (⟨1, ![32]⟩ : Shape).Idx → EReal)
    (W4 : (⟨2, ![32, 16]⟩ : Shape).Idx → EReal) (b4 : (⟨1, ![16]⟩ : Shape).Idx → EReal)
    (W5 : (⟨2, ![16, 8]⟩ : Shape).Idx → EReal) (b5 : (⟨1, ![8]⟩ : Shape).Idx → EReal)
    (W6 : (⟨2, ![8, 4]⟩ : Shape).Idx → EReal) (b6 : (⟨1, ![4]⟩ : Shape).Idx → EReal)
    (W7 : (⟨2, ![4, 50]⟩ : Shape).Idx → EReal) (b7 : (⟨1, ![50]⟩ : Shape).Idx → EReal) (e : Fin R) :
    row (scores H W1 b1 W2 b2 W3 b3 W4 b4 W5 b5 W6 b6 W7 b7) e
      = mlp (row H e) (mat W1) (vec b1) (mat W2) (vec b2) (mat W3) (vec b3) (mat W4) (vec b4)
          (mat W5) (vec b5) (mat W6) (vec b6) (mat W7) (vec b7) := rfl

/-- An `[R, N]` array is determined by its rows. -/
theorem ext_rows {R N : ℕ} {A B : (⟨2, ![R, N]⟩ : Shape).Idx → EReal} (h : ∀ e : Fin R, row A e = row B e) : A = B := by
  funext i
  obtain ⟨e, n, rfl⟩ : ∃ (e : Fin R) (n : Fin N), i = ix2 e n := ⟨i 0, i 1, eq_ix2 i⟩
  exact congrFun (h e) n

end Cert.EdgeMlp

end
-- ==== Proof.KernelRows.lean ====
/-
  The kernel body's arithmetic, read one row at a time.

  The body loads a block of 10000 feature rows and the seven weight matrices and biases whole, and stores one value:
  seven matrix products, each accumulated into the zero splat and added to its bias broadcast over the rows, with the
  maximum against the zero word after layers one, two, three, five and six, and a change of float format (the identity
  on the extended reals) between layers. Row `r` of that value is the seven layers of row `r` of the loaded block.
-/
import proofs.«154779_j72980084293700_1_alg».proof.Proof.Gen.KernelIdeal.Skeleton
import proofs.«154779_j72980084293700_1_alg».proof.Proof.Spec

noncomputable section

namespace Cert.KernelIdeal.Rows

open Cert.KernelIdeal Cert.KernelIdeal.Gen Cert.DenseRows Cert.EdgeMlp Idealize.ShloMosaic Idealize.ShloMosaic.ValueIdx

/-- Row `r` of the stored value is the seven layers of row `r` of the loaded feature block. -/
theorem payload_row (x0 : Vec Ideal S10000x16 .bf16) (x1 : Vec Ideal S16x128 .bf16) (x2 : Vec Ideal S128 .f32)
    (x3 : Vec Ideal S128x64 .bf16) (x4 : Vec Ideal S64 .f32) (x5 : Vec Ideal S64x32 .bf16) (x6 : Vec Ideal S32 .f32)
    (x7 : Vec Ideal S32x16 .bf16) (x8 : Vec Ideal S16 .f32) (x9 : Vec Ideal S16x8 .bf16) (x10 : Vec Ideal S8 .f32)
    (x11 : Vec Ideal S8x4 .bf16) (x12 : Vec Ideal S4 .f32) (x13 : Vec Ideal S4x50 .bf16) (x14 : Vec Ideal S50 .f32)
    (r : Fin 10000) :
    row (k0_pay1 (F := Ideal) (k0_pay2 x0 x1 x2 x3 x4 x5 x6 x7) (k0_pay3 x8) x9 x10 x11 x12 x13 x14) r
      = mlp (row x0 r) (mat x1) (vec x2) (mat x3) (vec x4) (mat x5) (vec x6) (mat x7) (vec x8)
          (mat x9) (vec x10) (mat x11) (vec x12) (mat x13) (vec x14) := by
  unfold k0_pay1 k0_pay2 k0_pay3 mlp
  dsimp only
  rw [row_matmul_bias dot_S10000x4_S4x50_S10000x50_1_0_0_1_n_n rfl, row_truncf, row_max_splat,
    row_matmul_bias dot_S10000x8_S8x4_S10000x4_1_0_0_1_n_n rfl, row_truncf, row_max_splat,
    row_matmul_bias dot_S10000x16_S16x8_S10000x8_1_0_0_1_n_n rfl, row_truncf,
    row_matmul_bias dot_S10000x32_S32x16_S10000x16_1_0_0_1_n_n rfl, row_truncf, row_max_splat,
    row_matmul_bias dot_S10000x64_S64x32_S10000x32_1_0_0_1_n_n rfl, row_truncf, row_max_splat,
    row_matmul_bias dot_S10000x128_S128x64_S10000x64_1_0_0_1_n_n rfl, row_truncf, row_max_splat,
    row_matmul_bias dot_S10000x16_S16x128_S10000x128_1_0_0_1_n_n rfl, row_shapeCast_self]
  simp only [mat_shapeCast_self]
  rfl

end Cert.KernelIdeal.Rows

end
-- ==== Proof.Blocks.lean ====
/-
  From blocks to the array: what the kernel's output array holds after the run.

  The grid has 100 points. At point `t` the feature window's block is rows `10000·t … 10000·t + 9999` of the feature array, each
  weight or bias window's block is its whole array, and the output window's block is the same rows of the output array.
  The body stores the seven layers of its block's rows, so what point `t` writes back is block `t` of ONE whole-array
  function of the arrays the region finds: the specification's seven layers row by row. The 100 blocks tile the million
  rows (row `e` lies in block `e / 10000`), so the array ends holding that function.
-/
import proofs.«154779_j72980084293700_1_alg».proof.Proof.Gen.KernelIdeal.Value
import proofs.«154779_j72980084293700_1_alg».proof.Proof.KernelRows

noncomputable section

namespace Cert.KernelIdeal.Blocks

open Cert.KernelIdeal Cert.KernelIdeal.Gen Cert.KernelIdeal.Rows Cert.DenseRows Cert.EdgeMlp
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

theorem hz2 : (![0, 0] : Fin 2 → Nat) = fun _ => 0 := funext fun a => by fin_cases a <;> rfl
theorem hz1 : (![0] : Fin 1 → Nat) = fun _ => 0 := funext fun a => by fin_cases a; rfl

/-! ## The index maps, decided over the grid -/

/-- The feature window and the output window move together: block index `(t, 0)` at point `t`. -/
theorem idx_rows : ∀ t : Fin cfg0.N, win0_0.index t (0 : Fin 2) = t.val ∧ win0_0.index t (1 : Fin 2) = 0
    ∧ win0_15.index t (0 : Fin 2) = t.val ∧ win0_15.index t (1 : Fin 2) = 0 :=
  (by decide +kernel : ∀ t : Fin grid0.N, _)

/-- Every weight window stays at block index `(0, 0)`. -/
theorem idx_mats : ∀ t : Fin cfg0.N, win0_1.index t (0 : Fin 2) = 0 ∧ win0_1.index t (1 : Fin 2) = 0
    ∧ win0_3.index t (0 : Fin 2) = 0 ∧ win0_3.index t (1 : Fin 2) = 0
    ∧ win0_5.index t (0 : Fin 2) = 0 ∧ win0_5.index t (1 : Fin 2) = 0
    ∧ win0_7.index t (0 : Fin 2) = 0 ∧ win0_7.index t (1 : Fin 2) = 0
    ∧ win0_9.index t (0 : Fin 2) = 0 ∧ win0_9.index t (1 : Fin 2) = 0
    ∧ win0_11.index t (0 : Fin 2) = 0 ∧ win0_11.index t (1 : Fin 2) = 0
    ∧ win0_13.index t (0 : Fin 2) = 0 ∧ win0_13.index t (1 : Fin 2) = 0 :=
  (by decide +kernel : ∀ t : Fin grid0.N, _)

/-- Every bias window stays at block index `0`. -/
theorem idx_vecs : ∀ t : Fin cfg0.N, win0_2.index t (0 : Fin 1) = 0
    ∧ win0_4.index t (0 : Fin 1) = 0
    ∧ win0_6.index t (0 : Fin 1) = 0
    ∧ win0_8.index t (0 : Fin 1) = 0
    ∧ win0_10.index t (0 : Fin 1) = 0
    ∧ win0_12.index t (0 : Fin 1) = 0
    ∧ win0_14.index t (0 : Fin 1) = 0 :=
  (by decide +kernel : ∀ t : Fin grid0.N, _)

/-! ## The input blocks, read off their arrays -/

/-- The feature window's block at point `t` is rows `10000·t + r` of the feature array. -/
theorem iblk0_apply (c : Dev nD) (t : Fin cfg0.N) (r : Fin 10000) (k : Fin 16) (e : Fin 1000000)
    (he : e.val = t.val * 10000 + r.val) :
    (iblk m c 0 t : Vec Ideal S10000x16 .bf16) (ix2 r k) = (V m c main_v19 : S1000000x16.Idx → Elt Ideal .bf16) (ix2 e k) := by
  obtain ⟨h0, h1, -, -⟩ := idx_rows t
  unfold iblk
  rw [View.read_apply]
  refine congrArg (V m c main_v19 : S1000000x16.Idx → Elt Ideal .bf16) (funext fun a => Fin.ext ?_)
  match a with
  | ⟨0, _⟩ => show win0_0.index t (0 : Fin 2) * 10000 + 1 * r.val = e.val; omega
  | ⟨1, _⟩ => show win0_0.index t (1 : Fin 2) * 16 + 1 * k.val = k.val; omega

/-- Window 1's block at every point is its whole array (its block index is zero on every axis). -/
theorem iblk1_eq (c : Dev nD) (t : Fin cfg0.N) :
    (iblk m c 1 t : Vec Ideal S16x128 .bf16) = (V m c main_v20 : S16x128.Idx → Elt Ideal .bf16) := by
  have hm := idx_mats t
  funext y
  unfold iblk
  rw [View.read_apply]
  refine congrArg (V m c main_v20 : S16x128.Idx → Elt Ideal .bf16) (funext fun a => Fin.ext ?_)
  match a with
  | ⟨0, _⟩ => show win0_1.index t (0 : Fin 2) * 16 + 1 * (y 0).val = (y 0).val; omega
  | ⟨1, _⟩ => show win0_1.index t (1 : Fin 2) * 128 + 1 * (y 1).val = (y 1).val; omega

/-- Window 2's block at every point is its whole array (its block index is zero on every axis). -/
theorem iblk2_eq (c : Dev nD) (t : Fin cfg0.N) :
    (iblk m c 2 t : Vec Ideal S128 .f32) = (V m c main_arg4 : S128.Idx → Elt Ideal .f32) := by
  have hv := idx_vecs t
  funext y
  unfold iblk
  rw [View.read_apply]
  refine congrArg (V m c main_arg4 : S128.Idx → Elt Ideal .f32) (funext fun a => Fin.ext ?_)
  match a with
  | ⟨0, _⟩ => show win0_2.index t (0 : Fin 1) * 128 + 1 * (y 0).val = (y 0).val; omega

/-- Window 3's block at every point is its whole array (its block index is zero on every axis). -/
theorem iblk3_eq (c : Dev nD) (t : Fin cfg0.N) :
    (iblk m c 3 t : Vec Ideal S128x64 .bf16) = (V m c main_v21 : S128x64.Idx → Elt Ideal .bf16) := by
  have hm := idx_mats t
  funext y
  unfold iblk
  rw [View.read_apply]
  refine congrArg (V m c main_v21 : S128x64.Idx → Elt Ideal .bf16) (funext fun a => Fin.ext ?_)
  match a with
  | ⟨0, _⟩ => show win0_3.index t (0 : Fin 2) * 128 + 1 * (y 0).val = (y 0).val; omega
  | ⟨1, _⟩ => show win0_3.index t (1 : Fin 2) * 64 + 1 * (y 1).val = (y 1).val; omega

/-- Window 4's block at every point is its whole array (its block index is zero on every axis). -/
theorem iblk4_eq (c : Dev nD) (t : Fin cfg0.N) :
    (iblk m c 4 t : Vec Ideal S64 .f32) = (V m c main_arg6 : S64.Idx → Elt Ideal .f32) := by
  have hv := idx_vecs t
  funext y
  unfold iblk
  rw [View.read_apply]
  refine congrArg (V m c main_arg6 : S64.Idx → Elt Ideal .f32) (funext fun a => Fin.ext ?_)
  match a with
  | ⟨0, _⟩ => show win0_4.index t (0 : Fin 1) * 64 + 1 * (y 0).val = (y 0).val; omega

/-- Window 5's block at every point is its whole array (its block index is zero on every axis). -/
theorem iblk5_eq (c : Dev nD) (t : Fin cfg0.N) :
    (iblk m c 5 t : Vec Ideal S64x32 .bf16) = (V m c main_v22 : S64x32.Idx → Elt Ideal .bf16) := by
  have hm := idx_mats t
  funext y
  unfold iblk
  rw [View.read_apply]
  refine congrArg (V m c main_v22 : S64x32.Idx → Elt Ideal .bf16) (funext fun a => Fin.ext ?_)
  match a with
  | ⟨0, _⟩ => show win0_5.index t (0 : Fin 2) * 64 + 1 * (y 0).val = (y 0).val; omega
  | ⟨1, _⟩ => show win0_5.index t (1 : Fin 2) * 32 + 1 * (y 1).val = (y 1).val; omega

/-- Window 6's block at every point is its whole array (its block index is zero on every axis). -/
theorem iblk6_eq (c : Dev nD) (t : Fin cfg0.N) :
    (iblk m c 6 t : Vec Ideal S32 .f32) = (V m c main_arg8 : S32.Idx → Elt Ideal .f32) := by
  have hv := idx_vecs t
  funext y
  unfold iblk
  rw [View.read_apply]
  refine congrArg (V m c main_arg8 : S32.Idx → Elt Ideal .f32) (funext fun a => Fin.ext ?_)
  match a with
  | ⟨0, _⟩ => show win0_6.index t (0 : Fin 1) * 32 + 1 * (y 0).val = (y 0).val; omega

/-- Window 7's block at every point is its whole array (its block index is zero on every axis). -/
theorem iblk7_eq (c : Dev nD) (t : Fin cfg0.N) :
    (iblk m c 7 t : Vec Ideal S32x16 .bf16) = (V m c main_v23 : S32x16.Idx → Elt Ideal .bf16) := by
  have hm := idx_mats t
  funext y
  unfold iblk
  rw [View.read_apply]
  refine congrArg (V m c main_v23 : S32x16.Idx → Elt Ideal .bf16) (funext fun a => Fin.ext ?_)
  match a with
  | ⟨0, _⟩ => show win0_7.index t (0 : Fin 2) * 32 + 1 * (y 0).val = (y 0).val; omega
  | ⟨1, _⟩ => show win0_7.index t (1 : Fin 2) * 16 + 1 * (y 1).val = (y 1).val; omega

/-- Window 8's block at every point is its whole array (its block index is zero on every axis). -/
theorem iblk8_eq (c : Dev nD) (t : Fin cfg0.N) :
    (iblk m c 8 t : Vec Ideal S16 .f32) = (V m c main_arg10 : S16.Idx → Elt Ideal .f32) := by
  have hv := idx_vecs t
  funext y
  unfold iblk
  rw [View.read_apply]
  refine congrArg (V m c main_arg10 : S16.Idx → Elt Ideal .f32) (funext fun a => Fin.ext ?_)
  match a with
  | ⟨0, _⟩ => show win0_8.index t (0 : Fin 1) * 16 + 1 * (y 0).val = (y 0).val; omega

/-- Window 9's block at every point is its whole array (its block index is zero on every axis). -/
theorem iblk9_eq (c : Dev nD) (t : Fin cfg0.N) :
    (iblk m c 9 t : Vec Ideal S16x8 .bf16) = (V m c main_v24 : S16x8.Idx → Elt Ideal .bf16) := by
  have hm := idx_mats t
  funext y
  unfold iblk
  rw [View.read_apply]
  refine congrArg (V m c main_v24 : S16x8.Idx → Elt Ideal .bf16) (funext fun a => Fin.ext ?_)
  match a with
  | ⟨0, _⟩ => show win0_9.index t (0 : Fin 2) * 16 + 1 * (y 0).val = (y 0).val; omega
  | ⟨1, _⟩ => show win0_9.index t (1 : Fin 2) * 8 + 1 * (y 1).val = (y 1).val; omega

/-- Window 10's block at every point is its whole array (its block index is zero on every axis). -/
theorem iblk10_eq (c : Dev nD) (t : Fin cfg0.N) :
    (iblk m c 10 t : Vec Ideal S8 .f32) = (V m c main_arg12 : S8.Idx → Elt Ideal .f32) := by
  have hv := idx_vecs t
  funext y
  unfold iblk
  rw [View.read_apply]
  refine congrArg (V m c main_arg12 : S8.Idx → Elt Ideal .f32) (funext fun a => Fin.ext ?_)
  match a with
  | ⟨0, _⟩ => show win0_10.index t (0 : Fin 1) * 8 + 1 * (y 0).val = (y 0).val; omega

/-- Window 11's block at every point is its whole array (its block index is zero on every axis). -/
theorem iblk11_eq (c : Dev nD) (t : Fin cfg0.N) :
    (iblk m c 11 t : Vec Ideal S8x4 .bf16) = (V m c main_v25 : S8x4.Idx → Elt Ideal .bf16) := by
  have hm := idx_mats t
  funext y
  unfold iblk
  rw [View.read_apply]
  refine congrArg (V m c main_v25 : S8x4.Idx → Elt Ideal .bf16) (funext fun a => Fin.ext ?_)
  match a with
  | ⟨0, _⟩ => show win0_11.index t (0 : Fin 2) * 8 + 1 * (y 0).val = (y 0).val; omega
  | ⟨1, _⟩ => show win0_11.index t (1 : Fin 2) * 4 + 1 * (y 1).val = (y 1).val; omega

/-- Window 12's block at every point is its whole array (its block index is zero on every axis). -/
theorem iblk12_eq (c : Dev nD) (t : Fin cfg0.N) :
    (iblk m c 12 t : Vec Ideal S4 .f32) = (V m c main_arg14 : S4.Idx → Elt Ideal .f32) := by
  have hv := idx_vecs t
  funext y
  unfold iblk
  rw [View.read_apply]
  refine congrArg (V m c main_arg14 : S4.Idx → Elt Ideal .f32) (funext fun a => Fin.ext ?_)
  match a with
  | ⟨0, _⟩ => show win0_12.index t (0 : Fin 1) * 4 + 1 * (y 0).val = (y 0).val; omega

/-- Window 13's block at every point is its whole array (its block index is zero on every axis). -/
theorem iblk13_eq (c : Dev nD) (t : Fin cfg0.N) :
    (iblk m c 13 t : Vec Ideal S4x50 .bf16) = (V m c main_v26 : S4x50.Idx → Elt Ideal .bf16) := by
  have hm := idx_mats t
  funext y
  unfold iblk
  rw [View.read_apply]
  refine congrArg (V m c main_v26 : S4x50.Idx → Elt Ideal .bf16) (funext fun a => Fin.ext ?_)
  match a with
  | ⟨0, _⟩ => show win0_13.index t (0 : Fin 2) * 4 + 1 * (y 0).val = (y 0).val; omega
  | ⟨1, _⟩ => show win0_13.index t (1 : Fin 2) * 50 + 1 * (y 1).val = (y 1).val; omega

/-- Window 14's block at every point is its whole array (its block index is zero on every axis). -/
theorem iblk14_eq (c : Dev nD) (t : Fin cfg0.N) :
    (iblk m c 14 t : Vec Ideal S50 .f32) = (V m c main_arg16 : S50.Idx → Elt Ideal .f32) := by
  have hv := idx_vecs t
  funext y
  unfold iblk
  rw [View.read_apply]
  refine congrArg (V m c main_arg16 : S50.Idx → Elt Ideal .f32) (funext fun a => Fin.ext ?_)
  match a with
  | ⟨0, _⟩ => show win0_14.index t (0 : Fin 1) * 50 + 1 * (y 0).val = (y 0).val; omega

/-! ## What a point writes back -/

/-- The value the body stores at point `t`: its arithmetic on the fifteen input blocks. -/
def stored (c : Dev nD) (t : Fin cfg0.N) : Vec Ideal S10000x50 .f32 :=
  k0_pay1 (k0_pay2 (iblk m c 0 t) (iblk m c 1 t) (iblk m c 2 t) (iblk m c 3 t) (iblk m c 4 t) (iblk m c 5 t) (iblk m c 6 t) (iblk m c 7 t))
    (k0_pay3 (iblk m c 8 t)) (iblk m c 9 t) (iblk m c 10 t) (iblk m c 11 t) (iblk m c 12 t) (iblk m c 13 t) (iblk m c 14 t)

/-- What point `t` writes back is the stored value (the one store covers the block; every load is of a whole block). -/
theorem flushed_stored (c : Dev nD) (t : Fin cfg0.N) :
    (dats m 0 c).flushed 15 t = (cfg0.win 15).cut (grid0.coords t) (stored m c t) := by
  rw [Cert.KernelIdeal.Value.flushed15]
  unfold out0_15 stored
  rw [View.canon_unit_zero hz2]
  simp only [View.ld_unit_zero (S := S10000x16) hz2,
    View.ld_unit_zero (S := S16x128) hz2,
    View.ld_unit_zero (S := S128x64) hz2,
    View.ld_unit_zero (S := S64x32) hz2,
    View.ld_unit_zero (S := S32x16) hz2,
    View.ld_unit_zero (S := S16x8) hz2,
    View.ld_unit_zero (S := S8x4) hz2,
    View.ld_unit_zero (S := S4x50) hz2,
    View.ld_unit_zero (S := S128) hz1,
    View.ld_unit_zero (S := S64) hz1,
    View.ld_unit_zero (S := S32) hz1,
    View.ld_unit_zero (S := S16) hz1,
    View.ld_unit_zero (S := S8) hz1,
    View.ld_unit_zero (S := S4) hz1,
    View.ld_unit_zero (S := S50) hz1]

/-- What the output array ends holding: the seven layers, row by row, of the arrays as the region finds them. -/
def result (c : Dev nD) : S1000000x50.Idx → EReal :=
  scores (R := 1000000) (V m c main_v19 : S1000000x16.Idx → Elt Ideal .bf16) (V m c main_v20 : S16x128.Idx → Elt Ideal .bf16) (V m c main_arg4 : S128.Idx → Elt Ideal .f32)
    (V m c main_v21 : S128x64.Idx → Elt Ideal .bf16) (V m c main_arg6 : S64.Idx → Elt Ideal .f32) (V m c main_v22 : S64x32.Idx → Elt Ideal .bf16) (V m c main_arg8 : S32.Idx → Elt Ideal .f32)
    (V m c main_v23 : S32x16.Idx → Elt Ideal .bf16) (V m c main_arg10 : S16.Idx → Elt Ideal .f32) (V m c main_v24 : S16x8.Idx → Elt Ideal .bf16) (V m c main_arg12 : S8.Idx → Elt Ideal .f32)
    (V m c main_v25 : S8x4.Idx → Elt Ideal .bf16) (V m c main_arg14 : S4.Idx → Elt Ideal .f32) (V m c main_v26 : S4x50.Idx → Elt Ideal .bf16) (V m c main_arg16 : S50.Idx → Elt Ideal .f32)

/-- Entry `(r, n)` of the value stored at point `t` is entry `(10000·t + r, n)` of `result`: both are the seven layers of
    that row of the feature array. -/
theorem stored_apply (c : Dev nD) (t : Fin cfg0.N) (r : Fin 10000) (n : Fin 50) (e : Fin 1000000)
    (he : e.val = t.val * 10000 + r.val) : stored m c t (ix2 r n) = result m c (ix2 e n) := by
  have hrow : row (iblk m c 0 t : Vec Ideal S10000x16 .bf16) r
      = row (V m c main_v19 : S1000000x16.Idx → Elt Ideal .bf16) e :=
    funext fun k => iblk0_apply m c t r k e he
  refine (congrFun (payload_row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r) n).trans ?_
  rw [hrow, iblk1_eq m c t, iblk2_eq m c t, iblk3_eq m c t, iblk4_eq m c t, iblk5_eq m c t, iblk6_eq m c t, iblk7_eq m c t, iblk8_eq m c t, iblk9_eq m c t, iblk10_eq m c t, iblk11_eq m c t, iblk12_eq m c t, iblk13_eq m c t, iblk14_eq m c t]
  rfl

/-- WHAT POINT `t` WRITES BACK is block `t` of `result`. -/
theorem flushed_eq (c : Dev nD) (t : Fin cfg0.N) :
    (dats m 0 c).flushed 15 t = ((cfg0.win 15).blk t).view.read (Elt Ideal) (result m c) := by
  obtain ⟨-, -, e0, e1⟩ := idx_rows t
  have hN : cfg0.N = 100 := N_0
  have ht := t.isLt
  rw [flushed_stored]
  funext j
  obtain ⟨r, n, rfl⟩ : ∃ (r : Fin 10000) (n : Fin 50), j = ix2 r n := ⟨j 0, j 1, eq_ix2 j⟩
  rw [View.read_apply]
  refine (stored_apply m c t r n ⟨t.val * 10000 + r.val, by omega⟩ rfl).trans
    (congrArg (result m c) (funext fun a => Fin.ext ?_))
  match a with
  | ⟨0, _⟩ => show t.val * 10000 + r.val = win0_15.index t (0 : Fin 2) * 10000 + 1 * r.val; omega
  | ⟨1, _⟩ => show n.val = win0_15.index t (1 : Fin 2) * 50 + 1 * n.val; omega

/-! ## The blocks tile the array -/

/-- An index of the output array is in point `t`'s block iff each coordinate is in the block's range on its axis. -/
theorem mem_blk (t : Fin cfg0.N) (i : S1000000x50.Idx) :
    i ∈ ((cfg0.win 15).blk t).view.set ↔ ∀ a : Fin 2, win0_15.index t a * S10000x50.size a ≤ (i a).val
      ∧ (i a).val < win0_15.index t a * S10000x50.size a + S10000x50.size a := by
  show i ∈ ((View.whole main_v27).slice (win0_15.rect t)).set ↔ _
  rw [View.set_slice_whole, Rect.mem_set_unit]
  exact Iff.rfl

/-- Row `e` of the output array lies in the block of point `e / 10000`, which writes back. -/
theorem cover (i : S1000000x50.Idx) :
    ∃ t : Fin cfg0.N, (cfg0.win 15).flush t = true ∧ i ∈ ((cfg0.win 15).blk t).view.set := by
  have hi0 : (i 0).val < 1000000 := (i 0).isLt
  have hi1 : (i 1).val < 50 := (i 1).isLt
  have hN : cfg0.N = 100 := N_0
  have ht : (i 0).val / 10000 < cfg0.N := by rw [hN]; omega
  obtain ⟨-, -, e0, e1⟩ := idx_rows ⟨(i 0).val / 10000, ht⟩
  have e0' : win0_15.index ⟨(i 0).val / 10000, ht⟩ (0 : Fin 2) = (i 0).val / 10000 := e0
  refine ⟨⟨(i 0).val / 10000, ht⟩, flush0_15 _, ?_⟩
  rw [mem_blk]
  intro a
  match a with
  | ⟨0, _⟩ =>
    show win0_15.index ⟨(i 0).val / 10000, ht⟩ (0 : Fin 2) * 10000 ≤ (i 0).val
      ∧ (i 0).val < win0_15.index ⟨(i 0).val / 10000, ht⟩ (0 : Fin 2) * 10000 + 10000
    omega
  | ⟨1, _⟩ =>
    show win0_15.index ⟨(i 0).val / 10000, ht⟩ (1 : Fin 2) * 50 ≤ (i 1).val
      ∧ (i 1).val < win0_15.index ⟨(i 0).val / 10000, ht⟩ (1 : Fin 2) * 50 + 50
    omega

/-- THE OUTPUT ARRAY after the run is `result`. -/
theorem final (c : Dev nD) : (dats m 0 c).arrAt 15 cfg0.N = result m c :=
  (dats m 0 c).arrAt_eq_of_cover 15 (result m c) (fun t _ => flushed_eq m c t) (cover)

end Cert.KernelIdeal.Blocks

end
-- ==== Proof.RefRows.lean ====
/-
  The reference, read one row at a time.

  After the shared gather and concatenation (kept here as ONE opaque array of feature rows, never opened) the reference
  applies seven times a host `dot_general` with a weight matrix, adds the bias broadcast in dimension over the rows, and
  after layers one, two, three, five and six takes the maximum with the zero constant broadcast to the array's shape.
  Row `e` of its result is the seven layers of row `e` of the feature array; so its result is the specification's
  whole-array function of the feature array and the weights.
-/
import proofs.«154779_j72980084293700_1_alg».proof.Proof.Gen.ReferenceIdeal.Read
import proofs.«154779_j72980084293700_1_alg».proof.Proof.Spec

noncomputable section

namespace Cert.ReferenceIdeal.Rows

open Cert.ReferenceIdeal Cert.ReferenceIdeal.Read Cert.DenseRows Cert.EdgeMlp Idealize.ShloMosaic Idealize.ShloMosaic.ValueIdx

/-- Row `e` of the reference's last stage is the seven layers of row `e` of the feature array. -/
theorem reference_row
    (x0 : (⟨S100000x8, .f32⟩ : BufTy).Contents (Elt Ideal)) (x2 : (⟨S2x1000000, .i32⟩ : BufTy).Contents (Elt Ideal)) (x3 : (⟨S16x128, .f32⟩ : BufTy).Contents (Elt Ideal)) (x4 : (⟨S128, .f32⟩ : BufTy).Contents (Elt Ideal))
    (x5 : (⟨S128x64, .f32⟩ : BufTy).Contents (Elt Ideal)) (x6 : (⟨S64, .f32⟩ : BufTy).Contents (Elt Ideal)) (x7 : (⟨S64x32, .f32⟩ : BufTy).Contents (Elt Ideal)) (x8 : (⟨S32, .f32⟩ : BufTy).Contents (Elt Ideal))
    (x9 : (⟨S32x16, .f32⟩ : BufTy).Contents (Elt Ideal)) (x10 : (⟨S16, .f32⟩ : BufTy).Contents (Elt Ideal)) (x11 : (⟨S16x8, .f32⟩ : BufTy).Contents (Elt Ideal)) (x12 : (⟨S8, .f32⟩ : BufTy).Contents (Elt Ideal))
    (x13 : (⟨S8x4, .f32⟩ : BufTy).Contents (Elt Ideal)) (x14 : (⟨S4, .f32⟩ : BufTy).Contents (Elt Ideal)) (x15 : (⟨S4x50, .f32⟩ : BufTy).Contents (Elt Ideal)) (x16 : (⟨S50, .f32⟩ : BufTy).Contents (Elt Ideal))
    (e : Fin 1000000) :
    row (val_main_v51 (F := Ideal) x0 x2 x3 x4 x5 x6 x7 x8 x9 x10 x11 x12 x13 x14 x15 x16) e
      = mlp (row (val_main_v18 (F := Ideal) x0 x2) e) (mat x3) (vec x4) (mat x5) (vec x6) (mat x7) (vec x8) (mat x9) (vec x10)
          (mat x11) (vec x12) (mat x13) (vec x14) (mat x15) (vec x16) := by
  unfold val_main_v51 val_main_v50 val_main_v49 val_main_v48 val_main_v47 val_main_call4_v0 val_main_call4_cst
    val_main_v46 val_main_v45 val_main_v44 val_main_v43 val_main_v42 val_main_call3_v0 val_main_call3_cst
    val_main_v41 val_main_v40 val_main_v39 val_main_v38
    val_main_v37 val_main_v36 val_main_v35 val_main_v34 val_main_v33 val_main_call2_v0 val_main_call2_cst
    val_main_v32 val_main_v31 val_main_v30 val_main_v29 val_main_v28 val_main_call1_v0 val_main_call1_cst
    val_main_v27 val_main_v26 val_main_v25 val_main_v24 val_main_v23 val_main_call0_v0 val_main_call0_cst
    val_main_v22 val_main_v21 val_main_v20 val_main_v19 mlp
  generalize val_main_v18 (F := Ideal) x0 x2 = H
  rw [row_dotGeneral_bias dot_S1000000x4_S4x50_S1000000x50_1_0_0_1_n_n rfl, row_max_splatInDim,
    row_dotGeneral_bias dot_S1000000x8_S8x4_S1000000x4_1_0_0_1_n_n rfl, row_max_splatInDim,
    row_dotGeneral_bias dot_S1000000x16_S16x8_S1000000x8_1_0_0_1_n_n rfl,
    row_dotGeneral_bias dot_S1000000x32_S32x16_S1000000x16_1_0_0_1_n_n rfl, row_max_splatInDim,
    row_dotGeneral_bias dot_S1000000x64_S64x32_S1000000x32_1_0_0_1_n_n rfl, row_max_splatInDim,
    row_dotGeneral_bias dot_S1000000x128_S128x64_S1000000x64_1_0_0_1_n_n rfl, row_max_splatInDim,
    row_dotGeneral_bias dot_S1000000x16_S16x128_S1000000x128_1_0_0_1_n_n rfl]
  rfl

/-- The reference's last stage IS the specification's function of the feature array and the weights. -/
theorem reference_eq_scores
    (x0 : (⟨S100000x8, .f32⟩ : BufTy).Contents (Elt Ideal)) (x2 : (⟨S2x1000000, .i32⟩ : BufTy).Contents (Elt Ideal)) (x3 : (⟨S16x128, .f32⟩ : BufTy).Contents (Elt Ideal)) (x4 : (⟨S128, .f32⟩ : BufTy).Contents (Elt Ideal))
    (x5 : (⟨S128x64, .f32⟩ : BufTy).Contents (Elt Ideal)) (x6 : (⟨S64, .f32⟩ : BufTy).Contents (Elt Ideal)) (x7 : (⟨S64x32, .f32⟩ : BufTy).Contents (Elt Ideal)) (x8 : (⟨S32, .f32⟩ : BufTy).Contents (Elt Ideal))
    (x9 : (⟨S32x16, .f32⟩ : BufTy).Contents (Elt Ideal)) (x10 : (⟨S16, .f32⟩ : BufTy).Contents (Elt Ideal)) (x11 : (⟨S16x8, .f32⟩ : BufTy).Contents (Elt Ideal)) (x12 : (⟨S8, .f32⟩ : BufTy).Contents (Elt Ideal))
    (x13 : (⟨S8x4, .f32⟩ : BufTy).Contents (Elt Ideal)) (x14 : (⟨S4, .f32⟩ : BufTy).Contents (Elt Ideal)) (x15 : (⟨S4x50, .f32⟩ : BufTy).Contents (Elt Ideal)) (x16 : (⟨S50, .f32⟩ : BufTy).Contents (Elt Ideal)) :
    val_main_v51 (F := Ideal) x0 x2 x3 x4 x5 x6 x7 x8 x9 x10 x11 x12 x13 x14 x15 x16
      = scores (val_main_v18 (F := Ideal) x0 x2) x3 x4 x5 x6 x7 x8 x9 x10 x11 x12 x13 x14 x15 x16 :=
  ext_rows fun e => reference_row x0 x2 x3 x4 x5 x6 x7 x8 x9 x10 x11 x12 x13 x14 x15 x16 e

end Cert.ReferenceIdeal.Rows

end
-- ==== Proof.HostPrefix.lean ====
/-
  The host operations before the region: what the kernel's windows find.

  Before launching the kernel the program gathers the two endpoint rows of every edge from the node table,
  concatenates them, and changes the float format of that feature array and of the seven weight matrices. On the
  extended reals a change of format is the identity, so the feature array the region finds is the same
  gather-and-concatenate term the reference computes (its stage before the first layer, kept as one opaque function of
  the node table and the edge list), and each weight matrix the region finds is the argument itself.
-/
import proofs.«154779_j72980084293700_1_alg».proof.Proof.Gen.KernelIdeal.Frame
import proofs.«154779_j72980084293700_1_alg».proof.Proof.Gen.ReferenceIdeal.Read
import Idealize.ShloMosaic.Lib.StableHlo.Run

noncomputable section

namespace Cert.KernelIdeal.HostPrefix

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- The feature array the region finds is the reference's gather-and-concatenate of the node table and the edge list. -/
theorem V_main_v19 (c : Dev nD) :
    (V m c main_v19 : S1000000x16.Idx → EReal)
      = Cert.ReferenceIdeal.Read.val_main_v18 (F := Ideal) (m ((c : Thread nD τ).loc main_arg0))
          (m ((c : Thread nD τ).loc main_arg2)) := by
  dsimp only [Gen.V, Gen.hostOps0]
  after_results_simp
  rfl

/-- The weight matrix of layer 1 as the region finds it is the argument itself. -/
theorem V_main_v20 (c : Dev nD) :
    (V m c main_v20 : S16x128.Idx → EReal) = (m ((c : Thread nD τ).loc main_arg3) : S16x128.Idx → EReal) := by
  dsimp only [Gen.V, Gen.hostOps0]
  after_results
  rfl

/-- The weight matrix of layer 2 as the region finds it is the argument itself. -/
theorem V_main_v21 (c : Dev nD) :
    (V m c main_v21 : S128x64.Idx → EReal) = (m ((c : Thread nD τ).loc main_arg5) : S128x64.Idx → EReal) := by
  dsimp only [Gen.V, Gen.hostOps0]
  after_results
  rfl

/-- The weight matrix of layer 3 as the region finds it is the argument itself. -/
theorem V_main_v22 (c : Dev nD) :
    (V m c main_v22 : S64x32.Idx → EReal) = (m ((c : Thread nD τ).loc main_arg7) : S64x32.Idx → EReal) := by
  dsimp only [Gen.V, Gen.hostOps0]
  after_results
  rfl

/-- The weight matrix of layer 4 as the region finds it is the argument itself. -/
theorem V_main_v23 (c : Dev nD) :
    (V m c main_v23 : S32x16.Idx → EReal) = (m ((c : Thread nD τ).loc main_arg9) : S32x16.Idx → EReal) := by
  dsimp only [Gen.V, Gen.hostOps0]
  after_results
  rfl

/-- The weight matrix of layer 5 as the region finds it is the argument itself. -/
theorem V_main_v24 (c : Dev nD) :
    (V m c main_v24 : S16x8.Idx → EReal) = (m ((c : Thread nD τ).loc main_arg11) : S16x8.Idx → EReal) := by
  dsimp only [Gen.V, Gen.hostOps0]
  after_results
  rfl

/-- The weight matrix of layer 6 as the region finds it is the argument itself. -/
theorem V_main_v25 (c : Dev nD) :
    (V m c main_v25 : S8x4.Idx → EReal) = (m ((c : Thread nD τ).loc main_arg13) : S8x4.Idx → EReal) := by
  dsimp only [Gen.V, Gen.hostOps0]
  after_results
  rfl

/-- The weight matrix of layer 7 as the region finds it is the argument itself. -/
theorem V_main_v26 (c : Dev nD) :
    (V m c main_v26 : S4x50.Idx → EReal) = (m ((c : Thread nD τ).loc main_arg15) : S4x50.Idx → EReal) := by
  dsimp only [Gen.V, Gen.hostOps0]
  after_results
  rfl

end Cert.KernelIdeal.HostPrefix

end
-- ==== Proof.lean ====
/-
  Per-edge features through seven dense layers: the tiled kernel against the whole-array reference, on the extended reals.

  Both programs first gather, for each of the million edges, the two endpoint rows of the node table and lay them side
  by side: a feature array of sixteen columns (the same host operations in both programs, carried as one opaque
  function). Both then apply seven dense layers `h ↦ h · W + b` of widths 16 → 128 → 64 → 32 → 16 → 8 → 4 → 50, taking the
  maximum with zero after layers one, two, three, five and six. The kernel does so on a hundred blocks of ten thousand
  rows, each with matrix products accumulated into zero and float formats changed in between (the identity on the
  extended reals); the reference does so on all rows at once with host contractions. A dense layer acts on each row
  separately, so row `e` of either result is the same function of row `e` of the feature array and of the weights
  (Proof/Spec.lean; Proof/KernelRows.lean and Proof/RefRows.lean read the two spellings over Proof/LibDenseRows.lean),
  the blocks tile the rows (Proof/Blocks.lean), and the arrays the kernel's windows find are the arguments and the shared
  feature array (Proof/HostPrefix.lean). No sum is reordered and no product distributed: the two sides are the same
  expression row by row, so the inputs' finiteness is never used. The second result is the label argument, returned
  unchanged by both programs.
-/
import proofs.«154779_j72980084293700_1_alg».proof.Defs
import proofs.«154779_j72980084293700_1_alg».proof.Proof.Gen.Kernel
import proofs.«154779_j72980084293700_1_alg».proof.Proof.Gen.Kernel.Skeleton
import proofs.«154779_j72980084293700_1_alg».proof.Proof.Gen.Kernel.Launch
import proofs.«154779_j72980084293700_1_alg».proof.Proof.Gen.Kernel.Points
import proofs.«154779_j72980084293700_1_alg».proof.Proof.Gen.Kernel.Frame
import proofs.«154779_j72980084293700_1_alg».proof.Proof.Gen.KernelIdeal
import proofs.«154779_j72980084293700_1_alg».proof.Proof.Gen.KernelIdeal.Skeleton
import proofs.«154779_j72980084293700_1_alg».proof.Proof.Gen.KernelIdeal.Launch
import proofs.«154779_j72980084293700_1_alg».proof.Proof.Gen.KernelIdeal.Points
import proofs.«154779_j72980084293700_1_alg».proof.Proof.Gen.KernelIdeal.Frame
import proofs.«154779_j72980084293700_1_alg».proof.Proof.Gen.ReferenceIdeal
import proofs.«154779_j72980084293700_1_alg».proof.Proof.Gen.Pre_finite_inputs
import proofs.«154779_j72980084293700_1_alg».proof.Proof.Gen.KernelIdeal.Value
import proofs.«154779_j72980084293700_1_alg».proof.Proof.Gen.ReferenceIdeal.Run
import proofs.«154779_j72980084293700_1_alg».proof.Proof.Gen.ReferenceIdeal.Read
import proofs.«154779_j72980084293700_1_alg».proof.Proof.Blocks
import proofs.«154779_j72980084293700_1_alg».proof.Proof.RefRows
import proofs.«154779_j72980084293700_1_alg».proof.Proof.HostPrefix
import Idealize.ShloMosaic.Adequacy
import Idealize.ShloMosaic.Init

noncomputable section

/-! ## The kernel's output array as a function of the arguments -/

namespace Cert.KernelIdeal.Joined

open Cert.KernelIdeal Cert.KernelIdeal.Gen Cert.EdgeMlp Idealize.ShloMosaic Idealize.ShloMosaic.TcCoe Idealize.SL.Sem

/-- What the kernel's output array ends holding, in terms of the launch memory: the seven layers, row by row, of the
    shared feature array and the weight and bias arguments. -/
theorem result_eq (m : (ℓ : Loc nD τ sig) → Buf (Elt Ideal) ℓ) (c : Dev nD) :
    Cert.KernelIdeal.Blocks.result m c
      = scores (R := 1000000)
          (Cert.ReferenceIdeal.Read.val_main_v18 (F := Ideal) (m ((c : Thread nD τ).loc main_arg0)) (m ((c : Thread nD τ).loc main_arg2)))
          (m ((c : Thread nD τ).loc main_arg3)) (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) (m ((c : Thread nD τ).loc main_arg11)) (m ((c : Thread nD τ).loc main_arg12))
          (m ((c : Thread nD τ).loc main_arg13)) (m ((c : Thread nD τ).loc main_arg14)) (m ((c : Thread nD τ).loc main_arg15)) (m ((c : Thread nD τ).loc main_arg16)) := by
  unfold Cert.KernelIdeal.Blocks.result
  rw [Cert.KernelIdeal.HostPrefix.V_main_v19 m c, Cert.KernelIdeal.HostPrefix.V_main_v20 m c,
    Cert.KernelIdeal.HostPrefix.V_main_v21 m c,
    Cert.KernelIdeal.HostPrefix.V_main_v22 m c,
    Cert.KernelIdeal.HostPrefix.V_main_v23 m c,
    Cert.KernelIdeal.HostPrefix.V_main_v24 m c,
    Cert.KernelIdeal.HostPrefix.V_main_v25 m c,
    Cert.KernelIdeal.HostPrefix.V_main_v26 m c,
    Gen.V_main_arg4 m c, Gen.V_main_arg6 m c, Gen.V_main_arg8 m c, Gen.V_main_arg10 m c, Gen.V_main_arg12 m c, Gen.V_main_arg14 m c, Gen.V_main_arg16 m c]

end Cert.KernelIdeal.Joined

/-! ## The claims -/

namespace Cert.Proof

open Idealize.ShloMosaic Idealize.SL.Sem

/-- The word-level kernel terminates without a fault and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference is a straight line of host operations: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation of the kernel. -/
theorem preserves : Cert.preserves_Kernel_KernelIdeal := trivial

/-- From memories that agree on the arguments both programs end with the same two results: the seven layers of the
    shared feature array row by row, and the label argument. -/
theorem algebraic : Cert.algebraic_KernelIdeal_ReferenceIdeal := by
  intro m ρ m' ρ' _ hagree
  refine ⟨fun c => Cert.KernelIdeal.Blocks.result m c,
    fun c => m ((c.tc : Thread Cert.KernelIdeal.nD Cert.KernelIdeal.τ).loc Cert.KernelIdeal.main_arg1), ?_, ?_⟩
  · exact (θ_run Cert.KernelIdeal.defs _ _).mono
      (fun r h c => ⟨(h c).1.trans (Cert.KernelIdeal.Blocks.final m c), (h c).2.2.1, (h c).2⟩)
      (Cert.KernelIdeal.Value.run_blocks m ρ)
  · refine (θ_run Cert.ReferenceIdeal.defs _ _).mono
      (fun r h c => ⟨(h c).1.trans ?_, (h c).2.1.trans (hagree c).2.1, (h c).2.2⟩)
      (Cert.ReferenceIdeal.Value.run (F := Ideal) m' ρ')
    obtain ⟨a0, -, a2, a3, a4, a5, a6, a7, a8, a9, a10, a11, a12, a13, a14, a15, a16⟩ := hagree c
    show Cert.ReferenceIdeal.Value.res_main_v51 m' c = Cert.KernelIdeal.Blocks.result m c
    rw [Cert.ReferenceIdeal.Read.val_main_v51_eq, Cert.ReferenceIdeal.Rows.reference_eq_scores,
      Cert.KernelIdeal.Joined.result_eq m c, a0, a2, a3, a4, a5, a6, a7, a8, a9, a10, a11, a12, a13, a14, a15, a16]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
